-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S1x128 : Shape := ⟨2, ![1, 128]⟩
abbrev S10000x128 : Shape := ⟨2, ![10000, 128]⟩

abbrev nBuf : Space → Nat
  | .hbm => 75
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .f32⟩
  | .hbm, ⟨11, _⟩ => ⟨S600000, .f32⟩
  | .hbm, ⟨12, _⟩ => ⟨S_, .f32⟩
  | .hbm, ⟨13, _⟩ => ⟨S100000, .f32⟩
  | .hbm, ⟨14, _⟩ => ⟨S600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000, .f32⟩
  | .hbm, ⟨46, _⟩ => ⟨S600000x1, .f32⟩
  | .hbm, ⟨47, _⟩ => ⟨S600000x128, .f32⟩
  | .hbm, ⟨48, _⟩ => ⟨S600000x128, .f32⟩
  | .hbm, ⟨49, _⟩ => ⟨S_, .f32⟩
  | .hbm, ⟨50, _⟩ => ⟨S100000x128, .f32⟩
  | .hbm, ⟨51, _⟩ => ⟨S600000x1, .i32⟩
  | .hbm, ⟨52, _⟩ => ⟨S100000x128, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S1x128, .f32⟩
  | .hbm, ⟨59, _⟩ => ⟨S1x128, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S1x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42_0 : Ref sig .tc := ⟨.hbm, 58, rfl⟩
abbrev main_v42_1 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  reduces_S10000x128_S128 : S10000x128.Reduces [0] S128
  shapeCasts_S1x128_S128 : S1x128.ShapeCasts S128
  bcast_S_S128 : S_.BroadcastsInDim S128 (![] : Fin 0 → Fin S128.rank)
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  gather_S100000_S600000x1_S600000_n_0_n_n_0_1_1_wf : GatherDims.WF S100000 S600000x1 S600000 [] [0] [] [0] [] 1 ![1]
  scatter_S100000x128_S600000x1_S600000x128_1_0_0_1_wf : ScatterDims.WF S100000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .f32⟩
  | .hbm, ⟨11, _⟩ => ⟨S600000, .f32⟩
  | .hbm, ⟨12, _⟩ => ⟨S_, .f32⟩
  | .hbm, ⟨13, _⟩ => ⟨S100000, .f32⟩
  | .hbm, ⟨14, _⟩ => ⟨S600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S100000x128, .f32⟩
  | .hbm, ⟨41, _⟩ => ⟨S600000x1, .i32⟩
  | .hbm, ⟨42, _⟩ => ⟨S100000x128, .f32⟩
  | .hbm, ⟨43, _⟩ => ⟨S100000, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S_, .i32⟩
  | .hbm, ⟨58, _⟩ => ⟨S_, .f32⟩
  | .hbm, ⟨59, _⟩ => ⟨S128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S_, .f32⟩
  | .hbm, ⟨75, _⟩ => ⟨S_, .i1⟩
  | .hbm, ⟨76, _⟩ => ⟨S_, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_call0_cst : Ref sig .tc := ⟨.hbm, 58, rfl⟩
abbrev main_call0_v0 : Ref sig .tc := ⟨.hbm, 59, rfl⟩
abbrev main_call0_v1 : Ref sig .tc := ⟨.hbm, 60, rfl⟩
abbrev main_call0_cst_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_cst_1 : Ref sig .tc := ⟨.hbm, 68, rfl⟩
abbrev main_call0_v8 : Ref sig .tc := ⟨.hbm, 69, rfl⟩
abbrev main_call0_cst_2 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_cst_3 : Ref sig .tc := ⟨.hbm, 74, rfl⟩
abbrev main_call0_v12 : Ref sig .tc := ⟨.hbm, 75, rfl⟩
abbrev main_call0_cst_4 : Ref sig .tc := ⟨.hbm, 76, rfl⟩
abbrev main_call0_call0_v0 : Ref sig .tc := ⟨.hbm, 77, rfl⟩
abbrev main_call0_call0_v1 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_9 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_call1_cst : Ref sig .tc := ⟨.hbm, 96, rfl⟩
abbrev main_call1_v0 : Ref sig .tc := ⟨.hbm, 97, rfl⟩
abbrev main_v57 : Ref sig .tc := ⟨.hbm, 98, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The kernel program's run with its RESULT named. Every weakly fair execution of the three-region program from any
  launch memory terminates without a fault, and in every final state the result array holds what the last region's
  write-backs leave there (the contents of that buffer at the last segment boundary), while the six argument arrays
  hold what they were launched with. The boundary contents are a fold through the program: the operations before the
  first region, each region's arrays at what its pipeline leaves, the operations between the second and third region.
-/
import proofs.«108725_j43920335568926_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents of its buffer, the arguments as launched. -/
theorem run : θ_run defs (onTc (τ := τ) (main (F := F))) ⟨m, fun _ => 0, ρ⟩ (fun r => ∀ c : Dev nD,
      r.2.mem ((c.tc : Thread nD τ).loc main_v55) = W5 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v55 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.ValueRun

end
-- ==== Proof.KTerm.lean ====
/-
  The host-side terms of the kernel's program, named after what they compute, so that every statement about the
  run speaks of one spelling. From the edge list [2, E] (row 0 the source node of each edge, row 1 its
  destination):
    row r of the edge list as a flat [E] vector;
    wrap(i) = i + N when i < 0, else i                         (negative indices count from the end);
    isd(row)(n) = rsqrt( max( #{e : row(e) = n}, 1 ) )         (inverse square root of a clipped degree count);
    agg(n, d) = ( Σ_{e : dst(e) = n} x(src'(e), d) · isd(src)(src'(e)) ) · isd(dst)(n),   src' = clamp(wrap(src)).
-/
import proofs.«108725_j43920335568926_2_alg».proof.Proof.Gen.KernelIdeal
import Idealize.ShloMosaic.PureOps.Ideal

noncomputable section

namespace Cert.KernelIdeal.HostTerm

open Cert.KernelIdeal Cert.KernelIdeal.Gen Idealize.ShloMosaic

variable {F : FTy → Type} [FloatOps F]

/-- Row 0 of the edge list (the source node of every edge) as a flat vector. -/
def edgeRow0 (ei : IVec S2x600000 32) : IVec S600000 32 :=
  shapeCast S600000 (extractStridedSlice S1x600000 ![0, 0] ei slices_S2x600000_S1x600000_0_0) shapeCasts_S1x600000_S600000

/-- Row 1 of the edge list (the destination node of every edge) as a flat vector. -/
def edgeRow1 (ei : IVec S2x600000 32) : IVec S600000 32 :=
  shapeCast S600000 (extractStridedSlice S1x600000 ![1, 0] ei slices_S2x600000_S1x600000_1_0) shapeCasts_S1x600000_S600000

/-- A negative node index counts from the end: i + 100000 when i < 0 (signed), else i. -/
def wrapIdx (row : IVec S600000 32) : IVec S600000 32 :=
  select (cmpi .slt row (broadcastInDim S600000 ![] bcast_S_S600000 (constantI S_ 32 0#32)))
    (addi row (broadcastInDim S600000 ![] bcast_S_S600000 (constantI S_ 32 100000#32))) row

/-- The edge indices as the one-column index array a gather or a scatter takes. -/
def asColumn (row : IVec S600000 32) : IVec S600000x1 32 :=
  broadcastInDim S600000x1 ![0] bcast_S600000_S600000x1_0 row

/-- rsqrt( max( count(n), 1 ) ), count(n) the number of edges whose entry in `row` is n: ones accumulated into zeros. -/
def invSqrtDeg (row : IVec S600000 32) : FVec F S100000 .f32 :=
  Host.rsqrt (maximumf
    (Host.scatterAdd scatter_S100000_S600000x1_S600000_n_0_0_1
      (broadcastInDim S100000 ![] bcast_S_S100000 (constant S_ .f32 0x00000000#32))
      (asColumn row)
      (broadcastInDim S600000 ![] bcast_S_S600000 (constant S_ .f32 0x3F800000#32)))
    (broadcastInDim S100000 ![] bcast_S_S100000 (constant S_ .f32 0x3F800000#32)))

/-- A per-node value spread along the 128 features of every node. -/
def perNode (v : FVec F S100000 .f32) : FVec F S100000x128 .f32 :=
  broadcastInDim S100000x128 ![0, 1] bcast_S100000x1_S100000x128_0_1 (broadcastInDim S100000x1 ![0] bcast_S100000_S100000x1_0 v)

/-- A per-edge value spread along the 128 features of every edge. -/
def perEdge (v : FVec F S600000 .f32) : FVec F S600000x128 .f32 :=
  broadcastInDim S600000x128 ![0, 1] bcast_S600000x1_S600000x128_0_1 (broadcastInDim S600000x1 ![0] bcast_S600000_S600000x1_0 v)

/-- The aggregated neighbourhood as this program computes it: the source rows are gathered first and each is then
    scaled by its source node's gathered factor; the scaled rows are accumulated at their destinations and the sums
    scaled by the destination's factor. -/
def aggK (x : FVec F S100000x128 .f32) (ei : IVec S2x600000 32) : FVec F S100000x128 .f32 :=
  mulf
    (Host.scatterAdd scatter_S100000x128_S600000x1_S600000x128_1_0_0_1
      (broadcastInDim S100000x128 ![] bcast_S_S100000x128 (constant S_ .f32 0x00000000#32))
      (asColumn (edgeRow1 ei))
      (mulf
        (Host.gather gather_S100000x128_S600000x1_S600000x128_1_0_n_n_0_1_1128 x (asColumn (wrapIdx (edgeRow0 ei))))
        (perEdge (Host.gather gather_S100000_S600000x1_S600000_n_0_n_n_0_1_1 (invSqrtDeg (edgeRow0 ei)) (asColumn (wrapIdx (edgeRow0 ei)))))))
    (perNode (invSqrtDeg (edgeRow1 ei)))

/-- A [128] vector as a [1, 128] row. -/
def asRow (v : FVec F S128 .f32) : FVec F S1x128 .f32 := shapeCast S1x128 v shapeCasts_S128_S1x128

/-- A [1, 128] row as a [128] vector. -/
def ofRow (v : FVec F S1x128 .f32) : FVec F S128 .f32 := shapeCast S128 v shapeCasts_S1x128_S128

/-- The word of 100000 as a [128] vector. -/
def countVec : FVec F S128 .f32 := broadcastInDim S128 ![] bcast_S_S128 (constant S_ .f32 0x47C35000#32)

/-- mean(j) = s1(j) / 100000 from the row of column sums. -/
def meanK (s1 : FVec F S1x128 .f32) : FVec F S128 .f32 := Host.divf (ofRow s1) countVec

/-- var(j) = s2(j) / 100000 − mean(j) · mean(j) from the rows of column sums and of column sums of squares. -/
def varK (s1 s2 : FVec F S1x128 .f32) : FVec F S128 .f32 :=
  subf (Host.divf (ofRow s2) countVec) (mulf (meanK s1) (meanK s1))

end Cert.KernelIdeal.HostTerm

end
-- ==== Proof.KHost.lean ====
/-
  The kernel program's buffers at its segment boundaries, read back to the launch memory.
  Before the first region the host operations leave: the aggregated neighbourhood (HostTerm.aggK of x and the edge
  list), the bias as a [1, 128] row, and x and W untouched. The first region's result h is what the second region
  reads and what the third region reads again (no operation in between writes it). Between the second and third
  region the host operations turn the two rows of column sums into mean = s1 / 100000 and
  var = s2 / 100000 − mean · mean, as [1, 128] rows, and γ and β into rows.
-/
import proofs.«108725_j43920335568926_2_alg».proof.Proof.Gen.KernelIdeal.Frame
import proofs.«108725_j43920335568926_2_alg».proof.Proof.KTerm
import Idealize.ShloMosaic.Lib.StableHlo.Run

set_option maxRecDepth 16384

noncomputable section

namespace Cert.KernelIdeal.Boundary

open Cert.KernelIdeal Cert.KernelIdeal.Gen Cert.KernelIdeal.HostTerm
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Before the first region -/

theorem V1_arg0 (c : Dev nD) : V1 m ρ c main_arg0 = m ((c : Thread nD τ).loc main_arg0) := by
  show StableHlo.after hostOps0 (W0 m ρ c) (Proc.devRef .tc main_arg0) = _
  after_results_simp

theorem V1_arg2 (c : Dev nD) : V1 m ρ c main_arg2 = m ((c : Thread nD τ).loc main_arg2) := by
  show StableHlo.after hostOps0 (W0 m ρ c) (Proc.devRef .tc main_arg2) = _
  after_results_simp

theorem V1_v40 (c : Dev nD) :
    (V1 m ρ c main_v40 : S1x128.Idx → Elt F .f32) = asRow (m ((c : Thread nD τ).loc main_arg3)) := by
  show StableHlo.after hostOps0 (W0 m ρ c) (Proc.devRef .tc main_v40) = _
  after_results_simp
  rfl

theorem V1_v39 (c : Dev nD) :
    (V1 m ρ c main_v39 : S100000x128.Idx → Elt F .f32)
      = aggK (m ((c : Thread nD τ).loc main_arg0)) (m ((c : Thread nD τ).loc main_arg1)) := by
  show StableHlo.after hostOps0 (W0 m ρ c) (Proc.devRef .tc main_v39) = _
  after_results_simp
  rfl

/-! ## The first region's result, and what the second region leaves -/

/-- The first region's result array h, as the second region finds it. -/
theorem V2_v41 (c : Dev nD) : V2 m ρ c main_v41 = (dat0 (V1 m ρ) c).arrAt 4 cfg0.N := W2_arr m ρ c 4

/-- The second region only reads h: it leaves the array as it found it. -/
theorem W3_v41 (c : Dev nD) : W3 m ρ c (Proc.devRef .tc main_v41) = V2 m ρ c main_v41 :=
  (W3_arr m ρ c 0).trans (((dat1 (V2 m ρ) c).arrAt_in 0 rfl _).trans (A_eq1 (V2 m ρ) c 0))

/-- The row of column sums. -/
theorem W3_sum (c : Dev nD) : W3 m ρ c (Proc.devRef .tc main_v42_0) = (dat1 (V2 m ρ) c).arrAt 1 cfg1.N := W3_arr m ρ c 1

/-- The row of column sums of squares. -/
theorem W3_sumsq (c : Dev nD) : W3 m ρ c (Proc.devRef .tc main_v42_1) = (dat1 (V2 m ρ) c).arrAt 2 cfg1.N := W3_arr m ρ c 2

/-- γ is untouched up to the third region's entry. -/
theorem W3_arg4 (c : Dev nD) : W3 m ρ c (Proc.devRef .tc main_arg4) = m ((c : Thread nD τ).loc main_arg4) :=
  (W3_of_ne m ρ c main_arg4 (by decide)).trans ((W2_of_ne m ρ c main_arg4 (by decide)).trans (by
    show StableHlo.after hostOps0 (W0 m ρ c) (Proc.devRef .tc main_arg4) = _
    after_results_simp))

/-- β is untouched up to the third region's entry. -/
theorem W3_arg5 (c : Dev nD) : W3 m ρ c (Proc.devRef .tc main_arg5) = m ((c : Thread nD τ).loc main_arg5) :=
  (W3_of_ne m ρ c main_arg5 (by decide)).trans ((W2_of_ne m ρ c main_arg5 (by decide)).trans (by
    show StableHlo.after hostOps0 (W0 m ρ c) (Proc.devRef .tc main_arg5) = _
    after_results_simp))

/-! ## Between the second and third region -/

theorem V4_v41 (c : Dev nD) : V4 m ρ c main_v41 = W3 m ρ c (Proc.devRef .tc main_v41) := by
  show StableHlo.after hostOps2 (W3 m ρ c) (Proc.devRef .tc main_v41) = _
  after_results_simp

/-- mean = s1 / 100000, as a row. -/
theorem V4_v53 (c : Dev nD) :
    (V4 m ρ c main_v53 : S1x128.Idx → Elt F .f32) = asRow (meanK (W3 m ρ c (Proc.devRef .tc main_v42_0))) := by
  show StableHlo.after hostOps2 (W3 m ρ c) (Proc.devRef .tc main_v53) = _
  after_results_simp
  rfl

/-- var = s2 / 100000 − mean · mean, as a row. -/
theorem V4_v54 (c : Dev nD) :
    (V4 m ρ c main_v54 : S1x128.Idx → Elt F .f32)
      = asRow (varK (W3 m ρ c (Proc.devRef .tc main_v42_0)) (W3 m ρ c (Proc.devRef .tc main_v42_1))) := by
  show StableHlo.after hostOps2 (W3 m ρ c) (Proc.devRef .tc main_v54) = _
  after_results_simp
  rfl

theorem V4_v51 (c : Dev nD) :
    (V4 m ρ c main_v51 : S1x128.Idx → Elt F .f32) = asRow (W3 m ρ c (Proc.devRef .tc main_arg4)) := by
  show StableHlo.after hostOps2 (W3 m ρ c) (Proc.devRef .tc main_v51) = _
  after_results_simp
  rfl

theorem V4_v52 (c : Dev nD) :
    (V4 m ρ c main_v52 : S1x128.Idx → Elt F .f32) = asRow (W3 m ρ c (Proc.devRef .tc main_arg5)) := by
  show StableHlo.after hostOps2 (W3 m ρ c) (Proc.devRef .tc main_v52) = _
  after_results_simp
  rfl

/-! ## The result -/

/-- The program's result array is what the third region's write-backs leave. -/
theorem W5_v55 (c : Dev nD) : W5 m ρ c (Proc.devRef .tc main_v55) = (dat2 (V4 m ρ) c).arrAt 5 cfg2.N := W5_arr m ρ c 5

end Cert.KernelIdeal.Boundary

end
-- ==== Proof.Spec.lean ====
/-
  The mathematics of the block, stated once over literal shapes and independent of either program.

  A graph-convolution block followed by batch normalisation and a clamp at zero:
    h(n, j)   = x(n, j) + ( Σ_k agg(n, k) · w(k, j) + b(j) )                       (residual + linear layer)
    s1(j)     = Σ_n h(n, j),      s2(j) = Σ_n h(n, j)²                             (column sums over all rows)
    out(n, j) = max( ((h(n, j) − mean(j)) · rsqrt(var(j) + ε)) · γ(j) + β(j), 0 ).
  The one-row arrays of shape [1, 128] are read at (0, j).
-/
import Idealize.ShloMosaic.PureOps.Ideal
import Idealize.ShloMosaic.Lib.ValueIdx

noncomputable section

namespace Cert.Spec

open Idealize.ShloMosaic Idealize.ShloMosaic.ValueIdx

/-- [100000, 128]: one row per node, one column per feature. -/
abbrev NF : Shape := ⟨2, ![100000, 128]⟩
/-- [128, 128]: the weight matrix. -/
abbrev FF : Shape := ⟨2, ![128, 128]⟩
/-- [1, 128]: one value per feature, kept as a row. -/
abbrev RowS : Shape := ⟨2, ![1, 128]⟩

/-- The residual plus the linear layer, entry by entry: x(n, j) + (Σ_k agg(n, k) · w(k, j) + b(0, j)). -/
def hres (x agg : NF.Idx → EReal) (w : FF.Idx → EReal) (b2 : RowS.Idx → EReal) : NF.Idx → EReal :=
  fun i => x i + ((∑ k : Fin 128, agg (ix2 (i 0) k) * w (ix2 k (i 1))) + b2 (ix2 (0 : Fin 1) (i 1)))

/-- The sum of a column over all 100000 rows, as a row: s1(0, j) = Σ_n h(n, j). -/
def colSum (h : NF.Idx → EReal) : RowS.Idx → EReal :=
  fun j => ∑ n : Fin 100000, h (ix2 n (j 1))

/-- The sum of the squares of a column over all rows, as a row: s2(0, j) = Σ_n h(n, j) · h(n, j). -/
def colSumSq (h : NF.Idx → EReal) : RowS.Idx → EReal :=
  fun j => ∑ n : Fin 100000, h (ix2 n (j 1)) * h (ix2 n (j 1))

/-- The binary32 word of ε = 1e-5 rounded, read as its exact value. -/
abbrev epsWord : BitVec 32 := 0x3727C5AC#32

/-- Normalise a column by a mean and a variance given per feature, scale by γ, shift by β, clamp below at zero:
    max( ((h(n, j) − mean(0, j)) · rsqrt(var(0, j) + ε)) · γ(0, j) + β(0, j), 0 ). -/
def normRelu (h : NF.Idx → EReal) (mean var γ β : RowS.Idx → EReal) : NF.Idx → EReal :=
  fun i => max ((((h i - mean (ix2 (0 : Fin 1) (i 1))) * Ideal.rsqrt (var (ix2 (0 : Fin 1) (i 1)) + Ideal.ofBits .f32 epsWord))
      * γ (ix2 (0 : Fin 1) (i 1))) + β (ix2 (0 : Fin 1) (i 1))) (Ideal.ofBits .f32 0x00000000#32)

end Cert.Spec

end
-- ==== Proof.RealLaws.lean ====
/-
  Real numbers inside the extended reals, and the two forms of a variance.

  The extended reals carry +inf and −inf, where distributivity fails; every law below that needs distributivity is
  therefore stated for entries that are real numbers. Sums, differences, products, maxima of reals are real; the
  inverse square root of a real that is at least one is real.

  The variance identity: for real h(1), …, h(N) and μ = (Σ h) / N,
      (Σ h²) / N − μ · μ  =  (Σ (h − μ)²) / N,
  because Σ (h − μ)² = Σ h² − 2 μ Σ h + N μ² = Σ h² − N μ².
-/
import Idealize.ShloMosaic.PureOps.Ideal
import Idealize.ShloMosaic.PureOps.Ideal.Laws

noncomputable section

namespace Cert.RealLaws

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- A finite sum of reals is real. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self _ _)).add (ih fun i hi => h i (Finset.mem_insert_of_mem hi))

/-- The inverse square root of a real that is at least one is real. -/
theorem IsReal.rsqrt_of_one_le {x : EReal} (hx : IsReal x) (h1 : 1 ≤ x) : IsReal (Ideal.rsqrt x) := by
  obtain ⟨r, rfl⟩ := hx
  have hr : (1 : ℝ) ≤ r := by
    have : ((1 : ℝ) : EReal) ≤ (r : EReal) := by rwa [EReal.coe_one]
    exact EReal.coe_le_coe_iff.mp this
  rw [Ideal.rsqrt_coe, if_neg (by linarith), if_neg (by linarith)]
  exact ⟨_, rfl⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Three binary32 words -/

/-- The word of 1.0 denotes 1. -/
theorem word_one : Ideal.ofBits .f32 0x3F800000#32 = ((1 : ℝ) : EReal) := by
  simp [Ideal.ofBits, Ideal.ieee, -EReal.coe_mul]; norm_num

/-- The word of 100000.0 denotes 100000. -/
theorem word_count : Ideal.ofBits .f32 0x47C35000#32 = ((100000 : ℝ) : EReal) := by
  simp [Ideal.ofBits, Ideal.ieee, -EReal.coe_mul]; norm_num

/-! ## The variance, two ways -/

/-- Over the reals: the mean of the squares minus the squared mean is the mean of the squared deviations. -/
theorem real_variance {N : ℕ} (h : Fin N → ℝ) (hN : (N : ℝ) ≠ 0) :
    (∑ n, h n * h n) * (1 / (N : ℝ)) - ((∑ n, h n) * (1 / (N : ℝ))) * ((∑ n, h n) * (1 / (N : ℝ)))
      = (∑ n, (h n - (∑ n, h n) * (1 / (N : ℝ))) * (h n - (∑ n, h n) * (1 / (N : ℝ)))) * (1 / (N : ℝ)) := by
  have e : ∀ μ : ℝ, ∑ n, (h n - μ) * (h n - μ) = (∑ n, h n * h n) - 2 * μ * (∑ n, h n) + (N : ℝ) * (μ * μ) := by
    intro μ
    have hexp : ∀ n, (h n - μ) * (h n - μ) = h n * h n - 2 * μ * h n + μ * μ := fun n => by ring
    simp only [hexp, Finset.sum_add_distrib, Finset.sum_sub_distrib, ← Finset.mul_sum, Finset.sum_const,
      Finset.card_univ, Fintype.card_fin, nsmul_eq_mul]
    ring
  rw [e]
  field_simp
  ring

/-- Over the extended reals, for real entries and a real nonzero count N: the same identity with the quotients taken
    by the ideal division. -/
theorem variance_forms {N : ℕ} (H : Fin N → EReal) (hH : ∀ n, IsReal (H n)) (hN : (N : ℝ) ≠ 0) :
    Ideal.div (∑ n, H n * H n) ((N : ℝ) : EReal)
        - Ideal.div (∑ n, H n) ((N : ℝ) : EReal) * Ideal.div (∑ n, H n) ((N : ℝ) : EReal)
      = Ideal.div (∑ n, (H n - Ideal.div (∑ n, H n) ((N : ℝ) : EReal)) * (H n - Ideal.div (∑ n, H n) ((N : ℝ) : EReal)))
          ((N : ℝ) : EReal) := by
  choose h hh using hH
  simp only [hh, Ideal.div_coe hN, ← EReal.coe_mul, ← coe_sum, ← EReal.coe_sub]
  exact congrArg _ (real_variance h hN)

end Cert.RealLaws

end
-- ==== Proof.Stats.lean ====
/-
  The specification's statistics rows.
     mean(j) = s1(j) / 100000,      var(j) = s2(j) / 100000 − mean(j) · mean(j),
  with s1, s2 the column sums and column sums of squares over all 100000 rows, and 100000 the binary32 word's value.
  For real entries var(j) is also the mean of the squared deviations from mean(j): the identity that joins a one-pass
  variance (sums of x and of x²) to a two-pass one (the mean first, then the deviations).
-/
import proofs.«108725_j43920335568926_2_alg».proof.Proof.Spec
import proofs.«108725_j43920335568926_2_alg».proof.Proof.RealLaws

noncomputable section

namespace Cert.Spec

open Idealize.ShloMosaic Idealize.ShloMosaic.ValueIdx Cert.RealLaws

/-- A [128] vector read as the [1, 128] row the specification takes: the row's entry (·, j) is the vector's entry j. -/
def rowOf (v : (⟨1, ![128]⟩ : Shape).Idx → EReal) : RowS.Idx → EReal := fun j => v (ix1 (j 1))

/-- mean(0, j) = (Σ_n h(n, j)) / 100000. -/
def meanRow (h : NF.Idx → EReal) : RowS.Idx → EReal :=
  fun j => Ideal.div (colSum h j) (Ideal.ofBits .f32 0x47C35000#32)

/-- var(0, j) = (Σ_n h(n, j)²) / 100000 − mean(0, j) · mean(0, j). -/
def varRow (h : NF.Idx → EReal) : RowS.Idx → EReal :=
  fun j => Ideal.div (colSumSq h j) (Ideal.ofBits .f32 0x47C35000#32) - meanRow h j * meanRow h j

/-- For real entries the variance row is the mean of the squared deviations from the mean row. -/
theorem varRow_centred (h : NF.Idx → EReal) (hh : ∀ i, IsReal (h i)) (j : RowS.Idx) :
    varRow h j
      = Ideal.div (∑ n : Fin 100000, (h (ix2 n (j 1)) - meanRow h j) * (h (ix2 n (j 1)) - meanRow h j))
          ((100000 : ℝ) : EReal) := by
  have key := variance_forms (N := 100000) (fun n => h (ix2 n (j 1))) (fun n => hh _) (by norm_num)
  unfold varRow meanRow colSum colSumSq
  rw [word_count]
  simpa using key

end Cert.Spec

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.PassAValue.lean ====
/-
  What the first pointwise pass leaves in its result array, as one function of the arrays it reads.

  The pass walks the [100000, 128] arrays x and agg in ten blocks of 10000 rows. At block t it reads rows
  10000·t … 10000·t + 9999 of x and of agg, the whole [128, 128] weight matrix w and the one bias row b (block (0, 0)
  of each at every point), and stores, entry by entry,
      x(n, j) + ( Σ_k agg(n, k) · w(k, j) + b(j) )
  into rows 10000·t … 10000·t + 9999 of the result: the product is a [10000, 128] by [128, 128] matrix product
  accumulated into the zero block. The ten blocks tile the result, so the result array ends holding that function
  of the whole arrays at every index.
-/
import proofs.«108725_j43920335568926_2_alg».proof.Proof.Gen.KernelIdeal.Frame
import proofs.«108725_j43920335568926_2_alg».proof.Proof.Spec
import proofs.«108725_j43920335568926_2_alg».proof.Proof.LibPlainMatmul
import Idealize.ShloMosaic.Lib.Pipeline.Value
import Idealize.ShloMosaic.Lib.ValueLayout

noncomputable section

namespace Cert.KernelIdeal.PassAValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The block's arithmetic at one entry -/

/-- The pass's contraction is the plain [10000, 128] × [128, 128] matrix product: axis 1 of the left operand against
    axis 0 of the right, no batch axes. -/
theorem product_plain : dot_S10000x128_S128x128_S10000x128_1_0_0_1_n_n = DotDims.plain 10000 128 128 := rfl

/-- Entry (p, q) of the block product into the zero block: the sum over k of agg(p, k) · w(k, q). -/
theorem blockProduct_apply (a : FVec Ideal S10000x128 .f32) (w : FVec Ideal S128x128 .f32) (p : Fin 10000) (q : Fin 128) :
    matmul dot_S10000x128_S128x128_S10000x128_1_0_0_1_n_n none a w (constant (F := Ideal) S10000x128 .f32 0x00000000#32) (ix2 p q)
      = ∑ k : Fin 128, a (ix2 p k) * w (ix2 k q) := by
  rw [product_plain]
  exact Cert.Lib.matmul_plain_zero_apply none a w p q

/-- The bias row broadcast over the 10000 rows of a block reads, at (p, q), the row at q. -/
theorem rowBroadcast_apply (v : FVec Ideal S1x128 .f32) (p : Fin 10000) (q : Fin 128) :
    broadcastTo S10000x128 v broadcasts_S1x128_S10000x128 (ix2 p q) = v (ix2 (0 : Fin 1) q) :=
  broadcastTo_1b_ab_apply v broadcasts_S1x128_S10000x128 p q

/-- Entry (p, q) of what a point stores: the block of x at (p, q) plus the product's entry plus the bias at q. -/
theorem stored_apply (agg : Vec Ideal S10000x128 .f32) (w : Vec Ideal S128x128 .f32) (b : Vec Ideal S1x128 .f32)
    (x : Vec Ideal S10000x128 .f32) (p : Fin 10000) (q : Fin 128) :
    k0_pay1 agg w b x (ix2 p q)
      = x (ix2 p q) + ((∑ k : Fin 128, agg (ix2 p k) * w (ix2 k q)) + b (ix2 (0 : Fin 1) q)) := by
  unfold k0_pay1
  simp only [shapeCast_self]
  show x (ix2 p q)
      + (matmul dot_S10000x128_S128x128_S10000x128_1_0_0_1_n_n none (agg : FVec Ideal S10000x128 .f32) (w : FVec Ideal S128x128 .f32)
            (constant (F := Ideal) S10000x128 .f32 0x00000000#32) (ix2 p q)
          + broadcastTo S10000x128 (b : FVec Ideal S1x128 .f32) broadcasts_S1x128_S10000x128 (ix2 p q)) = _
  rw [blockProduct_apply, rowBroadcast_apply]

/-- The same arithmetic on entries read off whole arrays — x at i', agg along a row at the indices ka k, w down a
    column at the indices kw k, the bias at kb — is the specification's entry at i as soon as i' is i, ka k is
    (i's row, k), kw k is (k, i's column) and kb is (0, i's column). -/
theorem hres_of_reads (x agg : S100000x128.Idx → EReal) (w : S128x128.Idx → EReal) (b : S1x128.Idx → EReal)
    (i i' : S100000x128.Idx) (ka : Fin 128 → S100000x128.Idx) (kw : Fin 128 → S128x128.Idx) (kb : S1x128.Idx)
    (e0 : i' = i) (ea : ∀ k, ka k = ix2 (i 0) k) (ew : ∀ k, kw k = ix2 k (i 1)) (eb : kb = ix2 (0 : Fin 1) (i 1)) :
    x i' + ((∑ k : Fin 128, agg (ka k) * w (kw k)) + b kb) = Cert.Spec.hres x agg w b i := by
  obtain rfl : ka = fun k => ix2 (i 0) k := funext ea
  obtain rfl : kw = fun k => ix2 k (i 1) := funext ew
  subst e0 eb
  rfl

/-! ## Where each point's blocks sit -/

theorem zeroOffsets : (![0, 0] : Fin 2 → Nat) = fun _ => 0 := funext fun a => by fin_cases a <;> rfl

/-- The printed index maps over the ten points: the blocks of x and of agg move with the result's block; the weight
    matrix and the bias row stay at block (0, 0); the result's block is the point's number along the rows and 0 along
    the columns. -/
theorem blockIndices : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every block of ten along the rows is some point's. -/
theorem blockOnto : ∀ r : Fin 10, ∃ t : Fin cfg0.N, win0_4.index t = ![r.val, 0] :=
  (by decide +kernel : ∀ r : Fin 10, ∃ t : Fin grid0.N, win0_4.index t = ![r.val, 0])

/-! ## What one point writes back -/

/-- Point t writes back block t of the residual plus the linear layer. -/
theorem written_eq (c : Dev nD) (t : Fin cfg0.N) :
    (dat0 (F := Ideal) V c).flushed 4 t
      = ((cfg0.win 4).blk t).view.read (Elt Ideal)
          (Cert.Spec.hres (V c main_arg0) (V c main_v39) (V c main_arg2) (V c main_v40)) := by
  show (cfg0.win 4).cut (grid0.coords t) ((dat0 (F := Ideal) V c).after 4 t) = _
  rw [after0_4]
  unfold out0_4
  rw [View.canon_unit_zero zeroOffsets]
  simp only [View.ld_unit_zero (S := S10000x128) zeroOffsets, View.ld_unit_zero (S := S128x128) zeroOffsets,
    View.ld_unit_zero (S := S1x128) zeroOffsets]
  obtain ⟨e00, e01, e10, e11, e20, e21, e30, e31, e40, e41⟩ := blockIndices t
  refine funext fun (j : S10000x128.Idx) => ?_
  obtain ⟨p, q, rfl⟩ : ∃ (p : Fin 10000) (q : Fin 128), j = ix2 p q := ⟨j 0, j 1, eq_ix2 j⟩
  refine (stored_apply (iblk0 V c 1 t) (iblk0 V c 2 t) (iblk0 V c 3 t) (iblk0 V c 0 t) p q).trans ?_
  have hp : p.val < 10000 := p.isLt
  have hq : q.val < 128 := q.isLt
  -- the block of x sits where the result's block sits
  have h0 : ((cfg0.win 0).blk t).view.emb (ix2 p q) = ((cfg0.win 4).blk t).view.emb (ix2 p q) := by
    funext a; apply Fin.ext
    match a with
    | ⟨0, _⟩ => show win0_0.index t (0 : Fin 2) * 10000 + 1 * p.val = win0_4.index t (0 : Fin 2) * 10000 + 1 * p.val; omega
    | ⟨1, _⟩ => show win0_0.index t (1 : Fin 2) * 128 + 1 * q.val = win0_4.index t (1 : Fin 2) * 128 + 1 * q.val; omega
  -- row p of the block of agg is the result's row, read at every column k
  have h1 : ∀ k : Fin 128, ((cfg0.win 1).blk t).view.emb (ix2 p k)
      = ix2 ((((cfg0.win 4).blk t).view.emb (ix2 p q)) 0) k := fun k => by
    have hk : k.val < 128 := k.isLt
    funext a; apply Fin.ext
    match a with
    | ⟨0, _⟩ => show win0_1.index t (0 : Fin 2) * 10000 + 1 * p.val = win0_4.index t (0 : Fin 2) * 10000 + 1 * p.val; omega
    | ⟨1, _⟩ => show win0_1.index t (1 : Fin 2) * 128 + 1 * k.val = k.val; omega
  -- the weight matrix's block is the matrix, read down the result's column
  have h2 : ∀ k : Fin 128, ((cfg0.win 2).blk t).view.emb (ix2 k q)
      = ix2 k ((((cfg0.win 4).blk t).view.emb (ix2 p q)) 1) := fun k => by
    have hk : k.val < 128 := k.isLt
    funext a; apply Fin.ext
    match a with
    | ⟨0, _⟩ => show win0_2.index t (0 : Fin 2) * 128 + 1 * k.val = k.val; omega
    | ⟨1, _⟩ => show win0_2.index t (1 : Fin 2) * 128 + 1 * q.val = win0_4.index t (1 : Fin 2) * 128 + 1 * q.val; omega
  -- the bias row's block is the row, read at the result's column
  have h3 : ((cfg0.win 3).blk t).view.emb (ix2 (0 : Fin 1) q) = ix2 (0 : Fin 1) ((((cfg0.win 4).blk t).view.emb (ix2 p q)) 1) := by
    funext a; apply Fin.ext
    match a with
    | ⟨0, _⟩ => show win0_3.index t (0 : Fin 2) * 1 + 1 * 0 = 0; omega
    | ⟨1, _⟩ => show win0_3.index t (1 : Fin 2) * 128 + 1 * q.val = win0_4.index t (1 : Fin 2) * 128 + 1 * q.val; omega
  exact hres_of_reads (V c main_arg0) (V c main_v39) (V c main_arg2) (V c main_v40)
    (((cfg0.win 4).blk t).view.emb (ix2 p q)) (((cfg0.win 0).blk t).view.emb (ix2 p q))
    (fun k => ((cfg0.win 1).blk t).view.emb (ix2 p k)) (fun k => ((cfg0.win 2).blk t).view.emb (ix2 k q))
    (((cfg0.win 3).blk t).view.emb (ix2 (0 : Fin 1) q))
    h0 h1 h2 h3

/-! ## The ten blocks tile the result -/

/-- An index of the result is in point t's block iff each coordinate is in the block's range on its axis. -/
theorem mem_block (t : Fin cfg0.N) (i : S100000x128.Idx) :
    i ∈ ((cfg0.win 4).blk t).view.set
      ↔ ∀ a : Fin 2, win0_4.index t a * S10000x128.size a ≤ (i a).val ∧ (i a).val < win0_4.index t a * S10000x128.size a + S10000x128.size a := by
  show i ∈ ((View.whole main_v41).slice (win0_4.rect t)).set ↔ _
  rw [View.set_slice_whole, Rect.mem_set_unit]
  exact Iff.rfl

/-- Row r of the result lies in the block of point r / 10000. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := blockOnto ⟨(i 0).val / 10000, by omega⟩
  have q0 : win0_4.index t (0 : Fin 2) = (i 0).val / 10000 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 128 ≤ (i 1).val ∧ (i 1).val < win0_4.index t (1 : Fin 2) * 128 + 128; omega

/-! ## The result array after the pass -/

/-- After the pass the result array holds, at every index, the residual plus the linear layer: the function
    `Cert.Spec.hres` of the four arrays the pass reads, as the pass finds them. -/
theorem passA_arr (c : Dev nD) :
    (dat0 (F := Ideal) V c).arrAt 4 cfg0.N
      = Cert.Spec.hres (V c main_arg0) (V c main_v39) (V c main_arg2) (V c main_v40) :=
  (dat0 (F := Ideal) V c).arrAt_eq_of_cover 4 _ (fun t _ => written_eq V c t) covered

end Cert.KernelIdeal.PassAValue

end
-- ==== Proof.PassBValue.lean ====
/-
  What the second pointwise pass leaves in its result array, as one function of the arrays it reads.

  The pass walks the [100000, 128] array h in ten blocks of 10000 rows. At block t it reads rows 10000·t … 10000·t + 9999
  of h and the four one-row arrays (mean, variance, γ, β — the same block (0, 0) at every point), and stores, entry by
  entry,
      max( ((h(n, j) − mean(j)) · rsqrt(var(j) + ε)) · γ(j) + β(j), 0 )
  into rows 10000·t … 10000·t + 9999 of the result. The ten blocks tile the result, so the result array ends holding
  that function of the whole arrays at every index.
-/
import proofs.«108725_j43920335568926_2_alg».proof.Proof.Gen.KernelIdeal.Frame
import proofs.«108725_j43920335568926_2_alg».proof.Proof.Spec
import Idealize.ShloMosaic.Lib.Pipeline.Value
import Idealize.ShloMosaic.Lib.ValueLayout

noncomputable section

namespace Cert.KernelIdeal.PassBValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The block's arithmetic at one entry -/

/-- A one-row array broadcast over the 10000 rows of a block reads, at (p, q), the row at q. -/
theorem rowBroadcast_apply (v : FVec Ideal S1x128 .f32) (p : Fin 10000) (q : Fin 128) :
    broadcastTo S10000x128 v broadcasts_S1x128_S10000x128 (ix2 p q) = v (ix2 (0 : Fin 1) q) :=
  broadcastTo_1b_ab_apply v broadcasts_S1x128_S10000x128 p q

/-- Entry (p, q) of what a point stores: the block of h at (p, q), normalised by the mean and variance rows at q,
    scaled by γ at q, shifted by β at q, clamped below at zero. -/
theorem stored_apply (var : Vec Ideal S1x128 .f32) (h : Vec Ideal S10000x128 .f32) (mean γ β : Vec Ideal S1x128 .f32)
    (p : Fin 10000) (q : Fin 128) :
    k2_pay1 var h mean γ β (ix2 p q)
      = max ((((h (ix2 p q) - mean (ix2 (0 : Fin 1) q)) * Ideal.rsqrt (var (ix2 (0 : Fin 1) q) + Ideal.ofBits .f32 0x3727C5AC#32))
          * γ (ix2 (0 : Fin 1) q)) + β (ix2 (0 : Fin 1) q)) (Ideal.ofBits .f32 0x00000000#32) := by
  unfold k2_pay1
  simp only [shapeCast_self]
  show max ((((h (ix2 p q) - broadcastTo S10000x128 mean broadcasts_S1x128_S10000x128 (ix2 p q))
        * broadcastTo S10000x128 (rsqrt (addf var (broadcast S1x128 (Scalar.ofBits (F := Ideal) .f32 0x3727C5AC#32))) : FVec Ideal S1x128 .f32) broadcasts_S1x128_S10000x128 (ix2 p q))
        * broadcastTo S10000x128 γ broadcasts_S1x128_S10000x128 (ix2 p q))
        + broadcastTo S10000x128 β broadcasts_S1x128_S10000x128 (ix2 p q)) (Ideal.ofBits .f32 0x00000000#32) = _
  rw [rowBroadcast_apply, rowBroadcast_apply, rowBroadcast_apply, rowBroadcast_apply]
  rfl

/-- The same arithmetic on entries read off whole arrays — h at i', the four rows at k₁ … k₄ — is the specification's
    entry at i as soon as i' is i and each k is (0, i's column). -/
theorem normRelu_of_reads (h : S100000x128.Idx → EReal) (mean var γ β : S1x128.Idx → EReal)
    (i i' : S100000x128.Idx) (k₁ k₂ k₃ k₄ : S1x128.Idx)
    (e0 : i' = i) (e1 : k₁ = ix2 (0 : Fin 1) (i 1)) (e2 : k₂ = ix2 (0 : Fin 1) (i 1))
    (e3 : k₃ = ix2 (0 : Fin 1) (i 1)) (e4 : k₄ = ix2 (0 : Fin 1) (i 1)) :
    max ((((h i' - mean k₁) * Ideal.rsqrt (var k₂ + Ideal.ofBits .f32 0x3727C5AC#32)) * γ k₃) + β k₄)
        (Ideal.ofBits .f32 0x00000000#32)
      = Cert.Spec.normRelu h mean var γ β i := by
  subst e0 e1 e2 e3 e4
  rfl

/-! ## Where each point's blocks sit -/

theorem zeroOffsets : (![0, 0] : Fin 2 → Nat) = fun _ => 0 := funext fun a => by fin_cases a <;> rfl

/-- The printed index maps over the ten points: the block of h moves with the result's block; the four one-row arrays
    stay at block (0, 0); the result's block is the point's number along the rows and 0 along the columns. -/
theorem blockIndices : ∀ t : Fin cfg2.N,
    win2_0.index t (0 : Fin 2) = win2_5.index t (0 : Fin 2) ∧ win2_0.index t (1 : Fin 2) = win2_5.index t (1 : Fin 2)
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block of ten along the rows is some point's. -/
theorem blockOnto : ∀ r : Fin 10, ∃ t : Fin cfg2.N, win2_5.index t = ![r.val, 0] :=
  (by decide +kernel : ∀ r : Fin 10, ∃ t : Fin grid2.N, win2_5.index t = ![r.val, 0])

/-! ## What one point writes back -/

/-- Point t writes back block t of the normalised, scaled, shifted and clamped array. -/
theorem written_eq (c : Dev nD) (t : Fin cfg2.N) :
    (dat2 (F := Ideal) V c).flushed 5 t
      = ((cfg2.win 5).blk t).view.read (Elt Ideal)
          (Cert.Spec.normRelu (V c main_v41) (V c main_v53) (V c main_v54) (V c main_v51) (V c main_v52)) := by
  show (cfg2.win 5).cut (grid2.coords t) ((dat2 (F := Ideal) V c).after 5 t) = _
  rw [after2_5]
  unfold out2_5
  rw [View.canon_unit_zero zeroOffsets]
  simp only [View.ld_unit_zero (S := S10000x128) zeroOffsets, View.ld_unit_zero (S := S1x128) zeroOffsets]
  obtain ⟨e00, e01, e10, e11, e20, e21, e30, e31, e40, e41, e50, e51⟩ := blockIndices t
  refine funext fun (j : S10000x128.Idx) => ?_
  obtain ⟨p, q, rfl⟩ : ∃ (p : Fin 10000) (q : Fin 128), j = ix2 p q := ⟨j 0, j 1, eq_ix2 j⟩
  refine (stored_apply (iblk2 V c 2 t) (iblk2 V c 0 t) (iblk2 V c 1 t) (iblk2 V c 3 t) (iblk2 V c 4 t) p q).trans ?_
  have hp : p.val < 10000 := p.isLt
  have hq : q.val < 128 := q.isLt
  -- the block of h sits where the result's block sits
  have h0 : ((cfg2.win 0).blk t).view.emb (ix2 p q) = ((cfg2.win 5).blk t).view.emb (ix2 p q) := by
    funext a; apply Fin.ext
    match a with
    | ⟨0, _⟩ => show win2_0.index t (0 : Fin 2) * 10000 + 1 * p.val = win2_5.index t (0 : Fin 2) * 10000 + 1 * p.val; omega
    | ⟨1, _⟩ => show win2_0.index t (1 : Fin 2) * 128 + 1 * q.val = win2_5.index t (1 : Fin 2) * 128 + 1 * q.val; omega
  -- a one-row array's block is the array, read at the result's column
  have h1 : ((cfg2.win 1).blk t).view.emb (ix2 (0 : Fin 1) q) = ix2 (0 : Fin 1) ((((cfg2.win 5).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 128 + 1 * q.val = win2_5.index t (1 : Fin 2) * 128 + 1 * q.val; omega
  have h2 : ((cfg2.win 2).blk t).view.emb (ix2 (0 : Fin 1) q) = ix2 (0 : Fin 1) ((((cfg2.win 5).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_5.index t (1 : Fin 2) * 128 + 1 * q.val; omega
  have h3 : ((cfg2.win 3).blk t).view.emb (ix2 (0 : Fin 1) q) = ix2 (0 : Fin 1) ((((cfg2.win 5).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 128 + 1 * q.val = win2_5.index t (1 : Fin 2) * 128 + 1 * q.val; omega
  have h4 : ((cfg2.win 4).blk t).view.emb (ix2 (0 : Fin 1) q) = ix2 (0 : Fin 1) ((((cfg2.win 5).blk t).view.emb (ix2 p q)) 1) := by
    funext a; apply Fin.ext
    match a with
    | ⟨0, _⟩ => show win2_4.index t (0 : Fin 2) * 1 + 1 * 0 = 0; omega
    | ⟨1, _⟩ => show win2_4.index t (1 : Fin 2) * 128 + 1 * q.val = win2_5.index t (1 : Fin 2) * 128 + 1 * q.val; omega
  exact normRelu_of_reads (V c main_v41) (V c main_v53) (V c main_v54) (V c main_v51) (V c main_v52)
    (((cfg2.win 5).blk t).view.emb (ix2 p q)) (((cfg2.win 0).blk t).view.emb (ix2 p q))
    (((cfg2.win 1).blk t).view.emb (ix2 (0 : Fin 1) q)) (((cfg2.win 2).blk t).view.emb (ix2 (0 : Fin 1) q))
    (((cfg2.win 3).blk t).view.emb (ix2 (0 : Fin 1) q)) (((cfg2.win 4).blk t).view.emb (ix2 (0 : Fin 1) q))
    h0 h1 h2 h3 h4

/-! ## The ten blocks tile the result -/

/-- An index of the result is in point t's block iff each coordinate is in the block's range on its axis. -/
theorem mem_block (t : Fin cfg2.N) (i : S100000x128.Idx) :
    i ∈ ((cfg2.win 5).blk t).view.set
      ↔ ∀ a : Fin 2, win2_5.index t a * S10000x128.size a ≤ (i a).val ∧ (i a).val < win2_5.index t a * S10000x128.size a + S10000x128.size a := by
  show i ∈ ((View.whole main_v55).slice (win2_5.rect t)).set ↔ _
  rw [View.set_slice_whole, Rect.mem_set_unit]
  exact Iff.rfl

/-- Row r of the result lies in the block of point r / 10000. -/
theorem covered (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := blockOnto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 128 ≤ (i 1).val ∧ (i 1).val < win2_5.index t (1 : Fin 2) * 128 + 128; omega

/-! ## The result array after the pass -/

/-- After the pass the result array holds, at every index, the clamped, scaled and shifted normalisation of h by the
    mean and variance rows: the function `Cert.Spec.normRelu` of the five arrays the pass reads, as the pass finds them. -/
theorem passB_arr (c : Dev nD) :
    (dat2 (F := Ideal) V c).arrAt 5 cfg2.N
      = Cert.Spec.normRelu (V c main_v41) (V c main_v53) (V c main_v54) (V c main_v51) (V c main_v52) :=
  (dat2 (F := Ideal) V c).arrAt_eq_of_cover 5 _ (fun t _ => written_eq V c t) covered

end Cert.KernelIdeal.PassBValue

end
-- ==== Proof.LibRowBlockSum.lean ====
/-
  A general lemma about sums over the indices of a two-axis array whose first extent is a product a·b: the sum over
  all indices (r, c), r < a·b, c < n, is the sum over the a row blocks t of the sum over the indices (p, c), p < b,
  c < n, of the term at row p + b·t. It holds in any commutative additive monoid — so over the extended reals, with
  infinite values allowed: only the order and grouping of a finite sum change.
-/
import Idealize.ShloMosaic.PureOps.Ideal
import Idealize.ShloMosaic.Lib.ValueIdx

noncomputable section

namespace Cert.Lib

open Idealize.ShloMosaic Idealize.ShloMosaic.ValueIdx

/-- Row `p` of row block `t`, of `a` blocks of `b` rows: row p + b·t. -/
def blockRow {a b : ℕ} (t : Fin a) (p : Fin b) : Fin (a * b) := finProdFinEquiv (t, p)

theorem blockRow_val {a b : ℕ} (t : Fin a) (p : Fin b) : (blockRow t p).val = p.val + b * t.val := rfl

/-- A sum over the a·b rows is the double sum over a blocks of b rows. -/
theorem sum_rows_blocks {M : Type*} [AddCommMonoid M] {a b : ℕ} (g : Fin (a * b) → M) :
    ∑ r, g r = ∑ t : Fin a, ∑ p : Fin b, g (blockRow t p) := by
  rw [← Equiv.sum_comp (finProdFinEquiv (m := a) (n := b)) g, Fintype.sum_prod_type]
  rfl

/-- A sum over the indices of an [a·b, n] array is the sum over the row blocks of the sums over the indices of a
    [b, n] block, the term read at the block's row. -/
theorem sum_row_blocks {M : Type*} [AddCommMonoid M] {a b n : ℕ} (f : (⟨2, ![a * b, n]⟩ : Shape).Idx → M) :
    ∑ j, f j = ∑ t : Fin a, ∑ idx : (⟨2, ![b, n]⟩ : Shape).Idx, f (ix2 (blockRow t (idx 0)) (idx 1)) := by
  rw [sum_idx2, sum_rows_blocks]
  refine Finset.sum_congr rfl fun t _ => ?_
  rw [sum_idx2]
  rfl

end Cert.Lib

end
-- ==== Proof.StatsValue.lean ====
/-
  The statistics region: what its two [1, 128] outputs hold when it ends.

  The region walks the 10 row blocks of a [100000, 128] array h; block t is rows 10000·t … 10000·t + 9999. At the
  first point it stores a row of zeros in both outputs; at every point it adds to output 1 the block's column sums
  and to output 2 the block's column sums of squares, each a sum over axis 0 of the block. Both outputs keep the
  block index (0, 0) throughout, so their arrays are written once, after the last point. Hence

    output 1 (0, j) = Σ_t Σ_p h(p + 10000·t, j)       = Σ_n h(n, j),
    output 2 (0, j) = Σ_t Σ_p h(p + 10000·t, j)²      = Σ_n h(n, j)²,

  the regrouping of a finite sum over the extended reals (no finiteness is needed: only order and grouping change).

  The steps: what one point leaves in each output, as a function of the input block and of what the output held
  (four cases: first point or later, output 1 or 2); those functions read at an entry (0, q) over the extended reals;
  the input block at point t read at (p, q) is the array at (p + 10000·t, q); by induction on the point, the outputs
  after point n hold the sums over blocks 0 … n; at n = 9 that is the sum over all rows; and the single write-back
  puts it in the array.
-/
import proofs.«108725_j43920335568926_2_alg».proof.Proof.Gen.KernelIdeal.Frame
import proofs.«108725_j43920335568926_2_alg».proof.Proof.Spec
import proofs.«108725_j43920335568926_2_alg».proof.Proof.LibRowBlockSum
import Idealize.ShloMosaic.Lib.Pipeline.Value
import Idealize.ShloMosaic.PureOps.Ideal.Laws
import Idealize.ShloMosaic.Lib.Tactic

noncomputable section

namespace Cert.KernelIdeal.StatsValue

open Cert.KernelIdeal Cert.KernelIdeal.Gen
open Idealize.ShloMosaic Idealize.ShloMosaic.TcCoe Idealize.ShloMosaic.ValueIdx Idealize.SL.Sem
open Idealize.ShloMosaic.Pipeline (Dat)

/-! ## What each case of the body leaves in the two outputs, at any float type -/

section Pieces
variable {F : FTy → Type} [FloatOps F]

theorem hz : (![0, 0] : Fin 2 → Nat) = fun _ => 0 := funext fun a => by fin_cases a <;> rfl

/-- A later point: output 1 holding `xo1` is left holding `xo1` plus the column sums of the input block `x`. -/
theorem out_B_1 (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S10000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  rw [View.canon_unit_zero hz]
  simp only [View.readAt_eq_ld, h1.read_unread, h2.read_unread, View.ld_unit_zero (S := S10000x128) hz,
    View.ld_unit_zero (S := S1x128) hz]

/-- A later point: output 2 holding `xo2` is left holding `xo2` plus the column sums of the squares of `x`. -/
theorem out_B_2 (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S10000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  rw [View.canon_unit_zero hz]
  simp only [View.readAt_eq_ld, h1.read_unread, h3.read_unread, View.ld_unit_zero (S := S10000x128) hz,
    View.ld_unit_zero (S := S1x128) hz]

/-- The first point: output 1 is zeroed, read back, and left holding zero plus the column sums of `x`. -/
theorem out_A_1 (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S10000x128 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S10000x128) hz]

/-- The first point: output 2 is zeroed, read back, and left holding zero plus the column sums of the squares of `x`. -/
theorem out_A_2 (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S10000x128 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S10000x128) hz]

end Pieces

/-! ## The two payloads read at an entry, over the extended reals -/

/-- A sum over axis 0 of a [10000, 128] block, read at column `q`: the sum over the 10000 rows of that column. -/
theorem rowsum_apply (src : FVec Ideal S10000x128 .f32) (hacc : (0x00000000#32 : BitVec 32) = 0x00000000#32) (q : Fin 128) :
    multiReduction .add [0] S128 src 0x00000000#32 reduces_S10000x128_S128 (.inl rfl) hacc (ix1 q)
      = ∑ p : Fin 10000, src (ix2 p q) := by
  refine (Ideal.multiReduction_add_single src 0x00000000#32 reduces_S10000x128_S128 (.inl rfl) hacc (ix1 q)).trans ?_
  refine Finset.sum_congr rfl fun p _ => congrArg src ?_
  funext a
  match a with
  | ⟨0, _⟩ => rfl
  | ⟨1, _⟩ => rfl

/-- The [128] row of sums stored as a [1, 128] row: entry (0, q) is entry q. -/
theorem row_cast_apply (v : FVec Ideal S128 .f32) (q : Fin 128) :
    shapeCast S1x128 v shapeCasts_S128_S1x128 (ix2 (0 : Fin 1) q) = v (ix1 q) := by
  refine shapeCast_apply v shapeCasts_S128_S1x128 (ix2 (0 : Fin 1) q) (ix1 q) ?_
  rw [Shape.rowMajor_val_one, Shape.rowMajor_val_two]
  show q.val = 0 * 128 + q.val
  omega

/-- The running column sum after a point: what the output held plus the block's column sum. -/
theorem pay4_apply (x : Vec Ideal S10000x128 .f32) (xo : Vec Ideal S1x128 .f32) (q : Fin 128) :
    k1_pay4 (F := Ideal) x xo (ix2 (0 : Fin 1) q) = xo (ix2 (0 : Fin 1) q) + ∑ p : Fin 10000, x (ix2 p q) := by
  unfold k1_pay4 k1_pay3
  refine congrArg₂ (· + ·) ?_ ?_
  · exact congrFun (shapeCast_self xo shapeCasts_S1x128_S1x128) _
  · refine (row_cast_apply _ q).trans ?_
    refine (rowsum_apply _ rfl q).trans ?_
    exact Finset.sum_congr rfl fun p _ => congrFun (shapeCast_self x shapeCasts_S10000x128_S10000x128) _

/-- The running column sum of squares after a point: what the output held plus the block's column sum of squares. -/
theorem pay5_apply (x : Vec Ideal S10000x128 .f32) (xo : Vec Ideal S1x128 .f32) (q : Fin 128) :
    k1_pay5 (F := Ideal) x xo (ix2 (0 : Fin 1) q)
      = xo (ix2 (0 : Fin 1) q) + ∑ p : Fin 10000, x (ix2 p q) * x (ix2 p q) := by
  unfold k1_pay5 k1_pay3
  refine congrArg₂ (· + ·) ?_ ?_
  · exact congrFun (shapeCast_self xo shapeCasts_S1x128_S1x128) _
  · refine (row_cast_apply _ q).trans ?_
    refine (rowsum_apply _ rfl q).trans ?_
    refine Finset.sum_congr rfl fun p _ => ?_
    exact congrArg₂ (· * ·) (congrFun (shapeCast_self x shapeCasts_S10000x128_S10000x128) _)
      (congrFun (shapeCast_self x shapeCasts_S10000x128_S10000x128) _)

/-- The zero row the first point stores: every entry is 0. -/
theorem pay1_apply (j : S1x128.Idx) : k1_pay1 (F := Ideal) j = 0 := Ideal.ofBits_zero_f32
theorem pay2_apply (j : S1x128.Idx) : k1_pay2 (F := Ideal) j = 0 := Ideal.ofBits_zero_f32

/-! ## The input block at a point, and the running sums point by point -/

variable (V : (c : Dev nD) → (b : Ref sig .tc) → Buf (Elt Ideal) ((c : Thread nD τ).loc b))

/-- The input window's block index at point `t` is (t, 0): block `t` of the rows, every column. -/
theorem idx_facts : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Entry (p, q) of the input block at point `n` is entry (p + 10000·n, q) of the array. -/
theorem iblk_apply (c : Dev nD) (n : ℕ) (hn : n < cfg1.N) (h10 : n < 10) (p : Fin 10000) (q : Fin 128) :
    (iblk1 V c 0 ⟨n, hn⟩ : S10000x128.Idx → EReal) (ix2 p q)
      = (V c main_v41 : S100000x128.Idx → EReal) (ix2 (Cert.Lib.blockRow (a := 10) (b := 10000) ⟨n, h10⟩ p) q) := by
  unfold iblk1
  rw [View.read_apply]
  show (V c main_v41 : S100000x128.Idx → EReal) _ = _
  refine congrArg _ ?_
  funext a
  apply Fin.ext
  match a with
  | ⟨0, _⟩ =>
    show win1_0.index ⟨n, hn⟩ 0 * 10000 + 1 * p.val = p.val + 10000 * n
    rw [(idx_facts ⟨n, hn⟩).1]
    show n * 10000 + 1 * p.val = p.val + 10000 * n
    omega
  | ⟨1, _⟩ =>
    show win1_0.index ⟨n, hn⟩ 1 * 128 + 1 * q.val = q.val
    rw [(idx_facts ⟨n, hn⟩).2]; omega

/-- The sum of column `q` over row block `s` (rows 10000·s … 10000·s + 9999) of `h`; zero past the last block. -/
def blockSum (h : S100000x128.Idx → EReal) (s : ℕ) (q : Fin 128) : EReal :=
  if hs : s < 10 then ∑ p : Fin 10000, h (ix2 (Cert.Lib.blockRow (a := 10) (b := 10000) ⟨s, hs⟩ p) q) else 0

/-- The same of the squares. -/
def blockSumSq (h : S100000x128.Idx → EReal) (s : ℕ) (q : Fin 128) : EReal :=
  if hs : s < 10 then ∑ p : Fin 10000, h (ix2 (Cert.Lib.blockRow (a := 10) (b := 10000) ⟨s, hs⟩ p) q)
      * h (ix2 (Cert.Lib.blockRow (a := 10) (b := 10000) ⟨s, hs⟩ p) q) else 0

/-- The first point leaves in output 1, at column `q`, zero plus the block's column sum. -/
theorem first_1 (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond1_0 i) (x : Vec Ideal S10000x128 .f32) (q : Fin 128) :
    out1_A_1 (F := Ideal) c i a1 h1 a2 h2 a3 h3 hc x (ix2 (0 : Fin 1) q) = ∑ p : Fin 10000, x (ix2 p q) := by
  rw [out_A_1 c i a1 h1 a2 h2 a3 h3 hc x]
  refine (pay4_apply x (k1_pay1 (F := Ideal)) q).trans ?_
  rw [pay1_apply, zero_add]

theorem first_2 (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : cond1_0 i) (x : Vec Ideal S10000x128 .f32) (q : Fin 128) :
    out1_A_2 (F := Ideal) c i a1 h1 a2 h2 a3 h3 hc x (ix2 (0 : Fin 1) q) = ∑ p : Fin 10000, x (ix2 p q) * x (ix2 p q) := by
  rw [out_A_2 c i a1 h1 a2 h2 a3 h3 hc x]
  refine (pay5_apply x (k1_pay2 (F := Ideal)) q).trans ?_
  rw [pay2_apply, zero_add]

/-- A later point leaves in output 1, at column `q`, what it held plus the block's column sum. -/
theorem later_1 (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec Ideal S10000x128 .f32) (xo1 xo2 : Vec Ideal S1x128 .f32) (q : Fin 128) :
    out1_B_1 (F := Ideal) c i a1 h1 a2 h2 a3 h3 hc x xo1 xo2 (ix2 (0 : Fin 1) q)
      = xo1 (ix2 (0 : Fin 1) q) + ∑ p : Fin 10000, x (ix2 p q) := by
  rw [out_B_1 c i a1 h1 a2 h2 a3 h3 hc x xo1 xo2]
  exact pay4_apply x xo1 q

theorem later_2 (c : Dev nD) (i : grid1.Coords) (a1 : Memref sig .tc .vmem S10000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec Ideal S10000x128 .f32) (xo1 xo2 : Vec Ideal S1x128 .f32) (q : Fin 128) :
    out1_B_2 (F := Ideal) c i a1 h1 a2 h2 a3 h3 hc x xo1 xo2 (ix2 (0 : Fin 1) q)
      = xo2 (ix2 (0 : Fin 1) q) + ∑ p : Fin 10000, x (ix2 p q) * x (ix2 p q) := by
  rw [out_B_2 c i a1 h1 a2 h2 a3 h3 hc x xo1 xo2]
  exact pay5_apply x xo2 q

/-- After point `n` output 1 holds, at column `q`, the sum of the column sums of blocks 0 … n; output 2 the same of
    the squares: by induction on the point. -/
theorem sums_after (c : Dev nD) : ∀ (n : ℕ) (hn : n < cfg1.N) (q : Fin 128),
    ((outsAt1 V c n hn).1 : S1x128.Idx → EReal) (ix2 (0 : Fin 1) q)
        = ∑ s ∈ Finset.range (n + 1), blockSum (V c main_v41) s q
      ∧ ((outsAt1 V c n hn).2 : S1x128.Idx → EReal) (ix2 (0 : Fin 1) q)
        = ∑ s ∈ Finset.range (n + 1), blockSumSq (V c main_v41) s q
  | 0, hn, q => by
    have h10 : (0 : ℕ) < 10 := by decide
    rw [outsAt1_A V c ⟨0, hn⟩ rfl, Finset.sum_range_one, Finset.sum_range_one]
    dsimp only
    refine ⟨?_, ?_⟩
    · refine (first_1 c (grid1.coords ⟨0, hn⟩) (ms1_0 ⟨0, hn⟩) (hs1_0 ⟨0, hn⟩) (ms1_1 ⟨0, hn⟩) (hs1_1 ⟨0, hn⟩)
        (ms1_2 ⟨0, hn⟩) (hs1_2 ⟨0, hn⟩) ((hcond1_0 ⟨0, hn⟩).mpr rfl) (iblk1 V c 0 ⟨0, hn⟩) q).trans ?_
      unfold blockSum
      rw [dif_pos h10]
      exact Finset.sum_congr rfl fun p _ => iblk_apply V c 0 hn h10 p q
    · refine (first_2 c (grid1.coords ⟨0, hn⟩) (ms1_0 ⟨0, hn⟩) (hs1_0 ⟨0, hn⟩) (ms1_1 ⟨0, hn⟩) (hs1_1 ⟨0, hn⟩)
        (ms1_2 ⟨0, hn⟩) (hs1_2 ⟨0, hn⟩) ((hcond1_0 ⟨0, hn⟩).mpr rfl) (iblk1 V c 0 ⟨0, hn⟩) q).trans ?_
      unfold blockSumSq
      rw [dif_pos h10]
      exact Finset.sum_congr rfl fun p _ => by rw [iblk_apply V c 0 hn h10 p q]
  | n + 1, hn, q => by
    have hN : cfg1.N = 10 := N_1
    have h10 : n + 1 < 10 := by omega
    have hB : ¬(⟨n + 1, hn⟩ : Fin cfg1.N).val % 10 = 0 := by dsimp only; omega
    have ih := sums_after c n (Nat.lt_of_succ_lt hn) q
    rw [outsAt1_B V c ⟨n + 1, hn⟩ hB, Finset.sum_range_succ _ (n + 1), Finset.sum_range_succ _ (n + 1)]
    dsimp only
    refine ⟨?_, ?_⟩
    · refine (later_1 c (grid1.coords ⟨n + 1, hn⟩) (ms1_0 ⟨n + 1, hn⟩) (hs1_0 ⟨n + 1, hn⟩) (ms1_1 ⟨n + 1, hn⟩)
        (hs1_1 ⟨n + 1, hn⟩) (ms1_2 ⟨n + 1, hn⟩) (hs1_2 ⟨n + 1, hn⟩) (fun h => hB ((hcond1_0 ⟨n + 1, hn⟩).mp h))
        (iblk1 V c 0 ⟨n + 1, hn⟩) _ _ q).trans ?_
      refine congrArg₂ (· + ·) ih.1 ?_
      unfold blockSum
      rw [dif_pos h10]
      exact Finset.sum_congr rfl fun p _ => iblk_apply V c (n + 1) hn h10 p q
    · refine (later_2 c (grid1.coords ⟨n + 1, hn⟩) (ms1_0 ⟨n + 1, hn⟩) (hs1_0 ⟨n + 1, hn⟩) (ms1_1 ⟨n + 1, hn⟩)
        (hs1_1 ⟨n + 1, hn⟩) (ms1_2 ⟨n + 1, hn⟩) (hs1_2 ⟨n + 1, hn⟩) (fun h => hB ((hcond1_0 ⟨n + 1, hn⟩).mp h))
        (iblk1 V c 0 ⟨n + 1, hn⟩) _ _ q).trans ?_
      refine congrArg₂ (· + ·) ih.2 ?_
      unfold blockSumSq
      rw [dif_pos h10]
      exact Finset.sum_congr rfl fun p _ => by rw [iblk_apply V c (n + 1) hn h10 p q]

/-! ## After the last point: the column sums over all 100000 rows, written back once -/

/-- The ten block sums of a column are its sum over all 100000 rows: row p of block t is row p + 10000·t. -/
theorem blockSum_total (h : S100000x128.Idx → EReal) (q : Fin 128) :
    ∑ s ∈ Finset.range 10, blockSum h s q = ∑ r : Fin 100000, h (ix2 r q) := by
  rw [Finset.sum_range]
  refine (Finset.sum_congr rfl fun t _ => ?_).trans
    (Cert.Lib.sum_rows_blocks (M := EReal) (a := 10) (b := 10000) fun r => h (ix2 r q)).symm
  unfold blockSum
  rw [dif_pos t.isLt]

/-- The same of the squares. -/
theorem blockSumSq_total (h : S100000x128.Idx → EReal) (q : Fin 128) :
    ∑ s ∈ Finset.range 10, blockSumSq h s q = ∑ r : Fin 100000, h (ix2 r q) * h (ix2 r q) := by
  rw [Finset.sum_range]
  refine (Finset.sum_congr rfl fun t _ => ?_).trans
    (Cert.Lib.sum_rows_blocks (M := EReal) (a := 10) (b := 10000) fun r => h (ix2 r q) * h (ix2 r q)).symm
  unfold blockSumSq
  rw [dif_pos t.isLt]

/-- After point 9 output 1 holds the column sums over all rows, output 2 those of the squares. -/
theorem last_sums (c : Dev nD) (t : Fin cfg1.N) (h9 : t.val = 9) :
    ((outsAt1 V c t.val t.isLt).1 : S1x128.Idx → EReal) = Cert.Spec.colSum (V c main_v41 : S100000x128.Idx → EReal)
      ∧ ((outsAt1 V c t.val t.isLt).2 : S1x128.Idx → EReal) = Cert.Spec.colSumSq (V c main_v41 : S100000x128.Idx → EReal) := by
  obtain ⟨n, hn⟩ := t
  dsimp only at h9
  subst h9
  dsimp only
  refine ⟨funext fun j => ?_, funext fun j => ?_⟩
  · obtain ⟨z, q, rfl⟩ : ∃ (z : Fin 1) (q : Fin 128), j = ix2 z q := ⟨j 0, j 1, eq_ix2 j⟩
    obtain rfl : z = 0 := Subsingleton.elim _ _
    exact (sums_after V c 9 hn q).1.trans (blockSum_total (V c main_v41) q)
  · obtain ⟨z, q, rfl⟩ : ∃ (z : Fin 1) (q : Fin 128), j = ix2 z q := ⟨j 0, j 1, eq_ix2 j⟩
    obtain rfl : z = 0 := Subsingleton.elim _ _
    exact (sums_after V c 9 hn q).2.trans (blockSumSq_total (V c main_v41) q)
/-- The one write-back of output 1, at point 9, writes the column sums: its block (0, 0) of the [1, 128] array is the array. -/
theorem flushed_1 (c : Dev nD) (t : Fin cfg1.N) (hf : (cfg1.win 1).flush t = true) :
    (dat1 (F := Ideal) V c).flushed 1 t
      = ((cfg1.win 1).blk t).view.read (Elt Ideal) (Cert.Spec.colSum (V c main_v41 : S100000x128.Idx → EReal)) := by
  have hN : cfg1.N = 10 := N_1
  have h9 : t.val = 9 := by have := (flush1_1 t).mp hf; have := t.isLt; omega
  obtain rfl : t = t1_9 := Fin.ext h9
  show (cfg1.win 1).cut (grid1.coords t1_9) ((dat1 V c).after 1 t1_9) = _
  rw [after1_1, (last_sums V c t1_9 rfl).1]
  have hz' : (fun a => win1_1.index t1_9 a * main_v42_0.ty.shape.size a) = fun _ => 0 :=
    funext fun a => by fin_cases a <;> decide
  exact (Memref.read_access_unit_zero (Elt Ideal) main_v42_0 hz' (fun a => by rw [congrFun hz' a]; simp)
    (Cert.Spec.colSum (V c main_v41 : S100000x128.Idx → EReal))).symm

/-- The one write-back of output 2, at point 9, writes the column sums of squares. -/
theorem flushed_2 (c : Dev nD) (t : Fin cfg1.N) (hf : (cfg1.win 2).flush t = true) :
    (dat1 (F := Ideal) V c).flushed 2 t
      = ((cfg1.win 2).blk t).view.read (Elt Ideal) (Cert.Spec.colSumSq (V c main_v41 : S100000x128.Idx → EReal)) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2, (last_sums V c t1_9 rfl).2]
  have hz' : (fun a => win1_2.index t1_9 a * main_v42_1.ty.shape.size a) = fun _ => 0 :=
    funext fun a => by fin_cases a <;> decide
  exact (Memref.read_access_unit_zero (Elt Ideal) main_v42_1 hz' (fun a => by rw [congrFun hz' a]; simp)
    (Cert.Spec.colSumSq (V c main_v41 : S100000x128.Idx → EReal))).symm

/-- Output 1's array ends holding the sum of every column over all 100000 rows: point 9's block covers it. -/
theorem sum_arr (c : Dev nD) :
    (dat1 (F := Ideal) V c).arrAt 1 cfg1.N = Cert.Spec.colSum (V c main_v41 : S100000x128.Idx → EReal) :=
  (dat1 (F := Ideal) V c).arrAt_eq_of_cover 1 (Cert.Spec.colSum (V c main_v41 : S100000x128.Idx → EReal))
    (flushed_1 V c) fun i =>
    ⟨t1_9, (flush1_1 t1_9).mpr rfl, by
      show i ∈ ((View.whole main_v42_0).slice (win1_1.rect t1_9)).set
      rw [View.set_slice_whole, Rect.mem_set_unit]
      intro a
      have h0 : (i 0 : Nat) < 1 := (i 0).isLt
      have h1 : (i 1 : Nat) < 128 := (i 1).isLt
      match a with
      | ⟨0, _⟩ =>
        show win1_1.index t1_9 0 * win1_1.size 0 ≤ (i 0 : Nat)
          ∧ (i 0 : Nat) < win1_1.index t1_9 0 * win1_1.size 0 + win1_1.xsize (grid1.coords t1_9) 0
        rw [show win1_1.index t1_9 0 * win1_1.size 0 = 0 from by decide +kernel,
          show win1_1.xsize (grid1.coords t1_9) 0 = 1 from by decide +kernel]
        omega
      | ⟨1, _⟩ =>
        show win1_1.index t1_9 1 * win1_1.size 1 ≤ (i 1 : Nat)
          ∧ (i 1 : Nat) < win1_1.index t1_9 1 * win1_1.size 1 + win1_1.xsize (grid1.coords t1_9) 1
        rw [show win1_1.index t1_9 1 * win1_1.size 1 = 0 from by decide +kernel,
          show win1_1.xsize (grid1.coords t1_9) 1 = 128 from by decide +kernel]
        omega⟩

/-- Output 2's array ends holding the sum of the squares of every column over all 100000 rows. -/
theorem sumsq_arr (c : Dev nD) :
    (dat1 (F := Ideal) V c).arrAt 2 cfg1.N = Cert.Spec.colSumSq (V c main_v41 : S100000x128.Idx → EReal) :=
  (dat1 (F := Ideal) V c).arrAt_eq_of_cover 2 (Cert.Spec.colSumSq (V c main_v41 : S100000x128.Idx → EReal))
    (flushed_2 V c) fun i =>
    ⟨t1_9, (flush1_2 t1_9).mpr rfl, by
      show i ∈ ((View.whole main_v42_1).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ =>
        show win1_2.index t1_9 0 * win1_2.size 0 ≤ (i 0 : Nat)
          ∧ (i 0 : Nat) < win1_2.index t1_9 0 * win1_2.size 0 + win1_2.xsize (grid1.coords t1_9) 0
        rw [show win1_2.index t1_9 0 * win1_2.size 0 = 0 from by decide +kernel,
          show win1_2.xsize (grid1.coords t1_9) 0 = 1 from by decide +kernel]
        omega
      | ⟨1, _⟩ =>
        show win1_2.index t1_9 1 * win1_2.size 1 ≤ (i 1 : Nat)
          ∧ (i 1 : Nat) < win1_2.index t1_9 1 * win1_2.size 1 + win1_2.xsize (grid1.coords t1_9) 1
        rw [show win1_2.index t1_9 1 * win1_2.size 1 = 0 from by decide +kernel,
          show win1_2.xsize (grid1.coords t1_9) 1 = 128 from by decide +kernel]
        omega⟩

end Cert.KernelIdeal.StatsValue

end
-- ==== Proof.KValue.lean ====
/-
  The kernel program's result array as the specification's function of the launch memory.

  The program runs three passes with host operations between them. Read back to the launch memory:
    the first pass leaves   h = x + (agg · w + b),   agg the aggregated neighbourhood the host computed from x and the
                            edge list, b the bias read as a row;
    the second pass only reads h and leaves the rows of column sums  s1(j) = Σ_n h(n, j)  and  s2(j) = Σ_n h(n, j)²;
    the host turns them into  mean = s1 / 100000  and  var = s2 / 100000 − mean · mean,  and γ and β into rows;
    the third pass leaves   max( ((h − mean) · rsqrt(var + ε)) · γ + β, 0 ).
  So the result is the specification's normalise-and-clamp of h by h's own mean and variance rows.
-/
import proofs.«108725_j43920335568926_2_alg».proof.Proof.KHost
import proofs.«108725_j43920335568926_2_alg».proof.Proof.Stats
import proofs.«108725_j43920335568926_2_alg».proof.Proof.PassAValue
import proofs.«108725_j43920335568926_2_alg».proof.Proof.PassBValue
import proofs.«108725_j43920335568926_2_alg».proof.Proof.StatsValue
import Idealize.ShloMosaic.Lib.ValueLayout
import Idealize.ShloMosaic.Lib.IdealHost

noncomputable section

namespace Cert.KernelIdeal.KValue

open Cert.KernelIdeal Cert.KernelIdeal.Gen Cert.KernelIdeal.HostTerm Cert.KernelIdeal.Boundary
open Idealize.ShloMosaic Idealize.ShloMosaic.TcCoe Idealize.SL.Sem Idealize.ShloMosaic.ValueIdx

/-! ## The host's rows at an index -/

/-- A [128] vector cast to a [1, 128] row is the specification's reading of the vector as a row. -/
theorem asRow_eq_rowOf (v : FVec Ideal S128 .f32) : asRow v = Cert.Spec.rowOf v := by
  funext j
  obtain ⟨u, q, rfl⟩ : ∃ (u : Fin 1) (q : Fin 128), j = ix2 u q := ⟨j 0, j 1, eq_ix2 j⟩
  exact shapeCast_a_1a_apply v shapeCasts_S128_S1x128 u q

/-- A [1, 128] row cast to a [128] vector reads, at q, the row at (0, q). -/
theorem ofRow_apply (r : FVec Ideal S1x128 .f32) (q : Fin 128) : ofRow r (ix1 q) = r (ix2 (0 : Fin 1) q) :=
  shapeCast_1a_a_apply r shapeCasts_S1x128_S128 q

/-- The count vector holds the word of 100000 at every entry. -/
theorem countVec_apply (q : Fin 128) : countVec (F := Ideal) (ix1 q) = Ideal.ofBits .f32 0x47C35000#32 :=
  broadcastInDim_scalar_apply bcast_S_S128 (constant (F := Ideal) S_ .f32 0x47C35000#32) (ix1 q)

/-- mean(q) = s1(0, q) / 100000. -/
theorem meanK_apply (s1 : FVec Ideal S1x128 .f32) (q : Fin 128) :
    meanK s1 (ix1 q) = Ideal.div (s1 (ix2 (0 : Fin 1) q)) (Ideal.ofBits .f32 0x47C35000#32) := by
  show Ideal.div (ofRow s1 (ix1 q)) (countVec (F := Ideal) (ix1 q)) = _
  rw [ofRow_apply, countVec_apply]

/-- var(q) = s2(0, q) / 100000 − mean(q) · mean(q). -/
theorem varK_apply (s1 s2 : FVec Ideal S1x128 .f32) (q : Fin 128) :
    varK s1 s2 (ix1 q)
      = Ideal.div (s2 (ix2 (0 : Fin 1) q)) (Ideal.ofBits .f32 0x47C35000#32) - meanK s1 (ix1 q) * meanK s1 (ix1 q) := by
  show Ideal.div (ofRow s2 (ix1 q)) (countVec (F := Ideal) (ix1 q)) - meanK s1 (ix1 q) * meanK s1 (ix1 q) = _
  rw [ofRow_apply, countVec_apply]

/-- The host's mean row of the column sums of h is the specification's mean row of h. -/
theorem asRow_meanK (h : Cert.Spec.NF.Idx → EReal) :
    asRow (F := Ideal) (meanK (Cert.Spec.colSum h)) = Cert.Spec.meanRow h := by
  rw [asRow_eq_rowOf]
  funext j
  obtain ⟨u, q, rfl⟩ : ∃ (u : Fin 1) (q : Fin 128), j = ix2 u q := ⟨j 0, j 1, eq_ix2 j⟩
  show meanK (F := Ideal) (Cert.Spec.colSum h) (ix1 q) = _
  rw [meanK_apply]
  rfl

/-- The host's variance row of the column sums and column sums of squares of h is the specification's variance row
    of h. -/
theorem asRow_varK (h : Cert.Spec.NF.Idx → EReal) :
    asRow (F := Ideal) (varK (Cert.Spec.colSum h) (Cert.Spec.colSumSq h)) = Cert.Spec.varRow h := by
  rw [asRow_eq_rowOf]
  funext j
  obtain ⟨u, q, rfl⟩ : ∃ (u : Fin 1) (q : Fin 128), j = ix2 u q := ⟨j 0, j 1, eq_ix2 j⟩
  show varK (F := Ideal) (Cert.Spec.colSum h) (Cert.Spec.colSumSq h) (ix1 q) = _
  rw [varK_apply, meanK_apply]
  rfl

/-! ## The chain of boundaries -/

variable (m : (ℓ : Loc nD τ sig) → Buf (Elt Ideal) ℓ) (ρ : Dev nD → PrngReg)

/-- h as this program computes it from the launch memory. -/
def hK (c : Dev nD) : Cert.Spec.NF.Idx → EReal :=
  Cert.Spec.hres (m ((c : Thread nD τ).loc main_arg0))
    (aggK (F := Ideal) (m ((c : Thread nD τ).loc main_arg0)) (m ((c : Thread nD τ).loc main_arg1)))
    (m ((c : Thread nD τ).loc main_arg2)) (Cert.Spec.rowOf (m ((c : Thread nD τ).loc main_arg3)))

/-- The first pass's result array, as the second pass finds it, is h. -/
theorem firstPass_eq (c : Dev nD) : (V2 m ρ c main_v41 : S100000x128.Idx → EReal) = hK m c := by
  rw [V2_v41, PassAValue.passA_arr (V1 m ρ) c, V1_arg0, V1_v39, V1_arg2, V1_v40, asRow_eq_rowOf]
  rfl

/-- The program's result array: h normalised by its own mean and variance rows, scaled by γ, shifted by β, clamped
    below at zero. -/
theorem result_eq (c : Dev nD) :
    W5 m ρ c (Proc.devRef .tc main_v55)
      = Cert.Spec.normRelu (hK m c) (Cert.Spec.meanRow (hK m c)) (Cert.Spec.varRow (hK m c))
          (Cert.Spec.rowOf (m ((c : Thread nD τ).loc main_arg4))) (Cert.Spec.rowOf (m ((c : Thread nD τ).loc main_arg5))) := by
  have e41 : (V4 m ρ c main_v41 : S100000x128.Idx → EReal) = hK m c :=
    (V4_v41 m ρ c).trans ((W3_v41 m ρ c).trans (firstPass_eq m ρ c))
  have e53 : (V4 m ρ c main_v53 : S1x128.Idx → EReal) = Cert.Spec.meanRow (hK m c) := by
    rw [V4_v53, W3_sum, StatsValue.sum_arr (V2 m ρ) c, firstPass_eq]
    exact asRow_meanK (hK m c)
  have e54 : (V4 m ρ c main_v54 : S1x128.Idx → EReal) = Cert.Spec.varRow (hK m c) := by
    rw [V4_v54, W3_sum, W3_sumsq, StatsValue.sum_arr (V2 m ρ) c, StatsValue.sumsq_arr (V2 m ρ) c, firstPass_eq]
    exact asRow_varK (hK m c)
  have e51 : (V4 m ρ c main_v51 : S1x128.Idx → EReal) = Cert.Spec.rowOf (m ((c : Thread nD τ).loc main_arg4)) := by
    rw [V4_v51, W3_arg4]
    exact asRow_eq_rowOf _
  have e52 : (V4 m ρ c main_v52 : S1x128.Idx → EReal) = Cert.Spec.rowOf (m ((c : Thread nD τ).loc main_arg5)) := by
    rw [V4_v52, W3_arg5]
    exact asRow_eq_rowOf _
  rw [W5_v55, PassBValue.passB_arr (V4 m ρ) c, e41, e53, e54, e51, e52]

end Cert.KernelIdeal.KValue

end
-- ==== Proof.RefTerm.lean ====
/-
  The host-side terms of the reference program, named after what they compute. From the edge list [2, E]
  (row 0 the source node of each edge, row 1 its destination), with wrap and isd as in the kernel's program:
    agg(n, d) = ( Σ_{e : dst(e) = n} (x · isd(src))(src'(e), d) ) · isd(dst)(n)    (the rows are scaled BEFORE the gather);
    h        = x + (agg · W + b);
    mean(j)  = (Σ_n h(n, j)) / 100000;
    var(j)   = (Σ_n (h(n, j) − mean(j))²) / (100000 − 0), taken only when 100000 − 0 > 0;
    out      = max( ((h − mean) · rsqrt(var + ε)) · γ + β, 0 ).
-/
import proofs.«108725_j43920335568926_2_alg».proof.Proof.Gen.ReferenceIdeal
import Idealize.ShloMosaic.PureOps.Ideal

noncomputable section

namespace Cert.ReferenceIdeal.HostTerm

open Cert.ReferenceIdeal Cert.ReferenceIdeal.Gen Idealize.ShloMosaic

variable {F : FTy → Type} [FloatOps F]

/-- Row 0 of the edge list (the source node of every edge) as a flat vector. -/
def edgeRow0 (ei : IVec S2x600000 32) : IVec S600000 32 :=
  shapeCast S600000 (extractStridedSlice S1x600000 ![0, 0] ei slices_S2x600000_S1x600000_0_0) shapeCasts_S1x600000_S600000

/-- Row 1 of the edge list (the destination node of every edge) as a flat vector. -/
def edgeRow1 (ei : IVec S2x600000 32) : IVec S600000 32 :=
  shapeCast S600000 (extractStridedSlice S1x600000 ![1, 0] ei slices_S2x600000_S1x600000_1_0) shapeCasts_S1x600000_S600000

/-- A negative node index counts from the end: i + 100000 when i < 0 (signed), else i. -/
def wrapIdx (row : IVec S600000 32) : IVec S600000 32 :=
  select (cmpi .slt row (broadcastInDim S600000 ![] bcast_S_S600000 (constantI S_ 32 0#32)))
    (addi row (broadcastInDim S600000 ![] bcast_S_S600000 (constantI S_ 32 100000#32))) row

/-- The edge indices as the one-column index array a gather or a scatter takes. -/
def asColumn (row : IVec S600000 32) : IVec S600000x1 32 :=
  broadcastInDim S600000x1 ![0] bcast_S600000_S600000x1_0 row

/-- rsqrt( max( count(n), 1 ) ), count(n) the number of edges whose entry in `row` is n: ones accumulated into zeros. -/
def invSqrtDeg (row : IVec S600000 32) : FVec F S100000 .f32 :=
  Host.rsqrt (maximumf
    (Host.scatterAdd scatter_S100000_S600000x1_S600000_n_0_0_1
      (broadcastInDim S100000 ![] bcast_S_S100000 (constant S_ .f32 0x00000000#32))
      (asColumn row)
      (broadcastInDim S600000 ![] bcast_S_S600000 (constant S_ .f32 0x3F800000#32)))
    (broadcastInDim S100000 ![] bcast_S_S100000 (constant S_ .f32 0x3F800000#32)))

/-- A per-node value spread along the 128 features of every node. -/
def perNode (v : FVec F S100000 .f32) : FVec F S100000x128 .f32 :=
  broadcastInDim S100000x128 ![0, 1] bcast_S100000x1_S100000x128_0_1 (broadcastInDim S100000x1 ![0] bcast_S100000_S100000x1_0 v)

/-- A per-feature value spread down all 100000 rows. -/
def perFeature (v : FVec F S128 .f32) : FVec F S100000x128 .f32 :=
  broadcastInDim S100000x128 ![0, 1] bcast_S1x128_S100000x128_0_1 (broadcastInDim S1x128 ![1] bcast_S128_S1x128_1 v)

/-- The aggregated neighbourhood as this program computes it: every node's row is scaled by its factor first, the
    scaled rows are gathered at the edges' sources, accumulated at their destinations, and the sums scaled by the
    destination's factor. -/
def aggR (x : FVec F S100000x128 .f32) (ei : IVec S2x600000 32) : FVec F S100000x128 .f32 :=
  mulf
    (Host.scatterAdd scatter_S100000x128_S600000x1_S600000x128_1_0_0_1
      (broadcastInDim S100000x128 ![] bcast_S_S100000x128 (constant S_ .f32 0x00000000#32))
      (asColumn (edgeRow1 ei))
      (Host.gather gather_S100000x128_S600000x1_S600000x128_1_0_n_n_0_1_1128
        (mulf x (perNode (invSqrtDeg (edgeRow0 ei)))) (asColumn (wrapIdx (edgeRow0 ei)))))
    (perNode (invSqrtDeg (edgeRow1 ei)))

/-- h = x + (agg · W + b). -/
def hR (x : FVec F S100000x128 .f32) (ei : IVec S2x600000 32) (w : FVec F S128x128 .f32) (b : FVec F S128 .f32) :
    FVec F S100000x128 .f32 :=
  addf x (addf (Host.dotGeneral dot_S100000x128_S128x128_S100000x128_1_0_0_1_n_n none (aggR x ei) w) (perFeature b))

/-- The sum of every column over all rows, from zero. -/
def colSumR (h : FVec F S100000x128 .f32) : FVec F S128 .f32 :=
  Host.reduceAdd h (constant S_ .f32 0x00000000#32) reducesTo_S100000x128_S128_d0 h_S_

/-- mean(j) = (Σ_n h(n, j)) / 100000. -/
def meanR (h : FVec F S100000x128 .f32) : FVec F S128 .f32 :=
  Host.divf (colSumR h) (broadcastInDim S128 ![] bcast_S_S128 (constant S_ .f32 0x47C35000#32))

/-- The mean again, as the variance computes it for itself: a [1, 128] row. -/
def meanRowR (h : FVec F S100000x128 .f32) : FVec F S1x128 .f32 :=
  Host.divf (broadcastInDim S1x128 ![1] bcast_S128_S1x128_1 (colSumR h))
    (broadcastInDim S1x128 ![] bcast_S_S1x128 (constant S_ .f32 0x47C35000#32))

/-- The squared deviations from the mean. -/
def devSqR (h : FVec F S100000x128 .f32) : FVec F S100000x128 .f32 :=
  mulf (subf h (broadcastInDim S100000x128 ![0, 1] bcast_S1x128_S100000x128_0_1 (meanRowR h)))
    (subf h (broadcastInDim S100000x128 ![0, 1] bcast_S1x128_S100000x128_0_1 (meanRowR h)))

/-- The divisor of the variance: 100000 minus the correction, here the integer zero converted. -/
def divisorR : FVec F S_ .f32 :=
  subf (constant S_ .f32 0x47C35000#32) (sitofp .f32 (constantI S_ 32 0#32))

/-- var(j) = (Σ_n (h(n, j) − mean(j))²) / divisor where the divisor is positive, and the quiet-NaN word otherwise. -/
def varR (h : FVec F S100000x128 .f32) : FVec F S128 .f32 :=
  select (broadcastInDim S128 ![] bcast_S_S128 (cmpf .ogt (divisorR (F := F)) (constant S_ .f32 0x00000000#32)))
    (Host.divf (colSumR (devSqR h)) (broadcastInDim S128 ![] bcast_S_S128 (divisorR (F := F))))
    (broadcastInDim S128 ![] bcast_S_S128 (id (constant S_ .f32 0x7FC00000#32)))

/-- out = max( ((h − mean) · rsqrt(var + ε)) · γ + β, 0 ). -/
def tailR (h : FVec F S100000x128 .f32) (γ β : FVec F S128 .f32) : FVec F S100000x128 .f32 :=
  maximumf
    (addf
      (mulf
        (mulf (subf h (perFeature (meanR h)))
          (perFeature (Host.rsqrt (addf (varR h) (broadcastInDim S128 ![] bcast_S_S128 (constant S_ .f32 0x3727C5AC#32))))))
        (perFeature γ))
      (perFeature β))
    (broadcastInDim S100000x128 ![] bcast_S_S100000x128 (constant S_ .f32 0x00000000#32))

/-- The reference's result as one term of its six arguments. -/
def refOut (x : FVec F S100000x128 .f32) (ei : IVec S2x600000 32) (w : FVec F S128x128 .f32) (b γ β : FVec F S128 .f32) :
    FVec F S100000x128 .f32 :=
  tailR (hR x ei w b) γ β

end Cert.ReferenceIdeal.HostTerm

end
-- ==== Proof.RefRun.lean ====
/-
  The run of the reference program: @main as one straight line of its ninety-three tensor operations — the three
  outlined functions (the variance, its guarded select, the final maximum with zero) written out at their calls over
  the buffers each call names — and what the result buffer holds once the line has run: `HostTerm.refOut` of the six
  arguments' launch contents, the arguments themselves unchanged.

  The line is read in four stretches. After each stretch the buffers a later stretch reads are given their value as a
  term of the launch contents (the edge rows, the clamped in-degree, the scaled rows; then h; then h's column mean and
  variance; then the result), and every buffer the stretch does not write keeps what it held.
-/
import proofs.«108725_j43920335568926_2_alg».proof.Proof.RefTerm
import Idealize.ShloMosaic.Lib.StableHlo.Run

set_option Elab.async false

noncomputable section

namespace Cert.ReferenceIdeal.RefRun

open Cert.ReferenceIdeal Cert.ReferenceIdeal.Gen Cert.ReferenceIdeal.HostTerm Idealize.ShloMosaic Idealize.ShloMosaic.TcCoe
  Idealize.SL.Sem Idealize.ShloMosaic.StableHlo

variable {F : FTy → Type} [FloatOps F]

/-! ## The operations, in order -/

/-- The edge rows, the in-degree counts of both rows, and the rows of `x` scaled by the source factor: operations 1 … 24. -/
abbrev opsA : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_cst (constant S_ .f32 0x3F800000#32),
    unary main_cst main_v4 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S600000x1 ![0] bcast_S600000_S600000x1_0 : (⟨S600000, .i32⟩ : BufTy).Contents (Elt F) → (⟨S600000x1, .i32⟩ : BufTy).Contents (Elt F)),
    ternary main_v5 main_v6 main_v4 main_v7 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0x00000000#32),
    unary main_cst_2 main_v10 (broadcastInDim S100000 ![] bcast_S_S100000 : (⟨S_, .f32⟩ : BufTy).Contents (Elt F) → (⟨S100000, .f32⟩ : BufTy).Contents (Elt F)),
    unary main_v3 main_v11 (broadcastInDim S600000x1 ![0] bcast_S600000_S600000x1_0 : (⟨S600000, .i32⟩ : BufTy).Contents (Elt F) → (⟨S600000x1, .i32⟩ : BufTy).Contents (Elt F)),
    ternary main_v10 main_v11 main_v4 main_v12 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_3 (constant S_ .f32 0x3F800000#32),
    unary main_cst_3 main_v13 (broadcastInDim S100000 ![] bcast_S_S100000 : (⟨S_, .f32⟩ : BufTy).Contents (Elt F) → (⟨S100000, .f32⟩ : BufTy).Contents (Elt F)),
    binary main_v12 main_v13 main_v14 (maximumf : (⟨S100000, .f32⟩ : BufTy).Contents (Elt F) → (⟨S100000, .f32⟩ : BufTy).Contents (Elt F) → (⟨S100000, .f32⟩ : BufTy).Contents (Elt F)),
    unary main_v9 main_v15 (Host.rsqrt : (⟨S100000, .f32⟩ : BufTy).Contents (Elt F) → (⟨S100000, .f32⟩ : BufTy).Contents (Elt F)),
    unary main_v15 main_v16 (broadcastInDim S100000x1 ![0] bcast_S100000_S100000x1_0 : (⟨S100000, .f32⟩ : BufTy).Contents (Elt F) → (⟨S100000x1, .f32⟩ : BufTy).Contents (Elt F)),
    unary main_v16 main_v17 (broadcastInDim S100000x128 ![0, 1] bcast_S100000x1_S100000x128_0_1 : (⟨S100000x1, .f32⟩ : BufTy).Contents (Elt F) → (⟨S100000x128, .f32⟩ : BufTy).Contents (Elt F)),
    binary main_arg0 main_v17 main_v18 (mulf : (⟨S100000x128, .f32⟩ : BufTy).Contents (Elt F) → (⟨S100000x128, .f32⟩ : BufTy).Contents (Elt F) → (⟨S100000x128, .f32⟩ : BufTy).Contents (Elt F)) ]

/-- The wrapped source indices, the gather at the sources, the accumulation at the destinations, the destination scaling, the product with `W`, the bias and the residual sum `h`: operations 25 … 46. -/
abbrev opsB : List (HloOp τ sig (Elt F)) :=
  [ nullary main_c (constantI S_ 32 0#32),
    unary main_c main_v19 (broadcastInDim S600000 ![] bcast_S_S600000 : (⟨S_, .i32⟩ : BufTy).Contents (Elt F) → (⟨S600000, .i32⟩ : BufTy).Contents (Elt F)),
    binary main_v1 main_v19 main_v20 (cmpi .slt : (⟨S600000, .i32⟩ : BufTy).Contents (Elt F) → (⟨S600000, .i32⟩ : BufTy).Contents (Elt F) → (⟨S600000, .i1⟩ : BufTy).Contents (Elt F)),
    nullary main_c_4 (constantI S_ 32 100000#32),
    unary main_c_4 main_v21 (broadcastInDim S600000 ![] bcast_S_S600000 : (⟨S_, .i32⟩ : BufTy).Contents (Elt F) → (⟨S600000, .i32⟩ : BufTy).Contents (Elt F)),
    binary main_v1 main_v21 main_v22 (addi : (⟨S600000, .i32⟩ : BufTy).Contents (Elt F) → (⟨S600000, .i32⟩ : BufTy).Contents (Elt F) → (⟨S600000, .i32⟩ : BufTy).Contents (Elt F)),
    ternary main_v20 main_v22 main_v1 main_v23 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v23 main_v24 (broadcastInDim S600000x1 ![0] bcast_S600000_S600000x1_0 : (⟨S600000, .i32⟩ : BufTy).Contents (Elt F) → (⟨S600000x1, .i32⟩ : BufTy).Contents (Elt F)),
    binary main_v18 main_v24 main_v25 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    nullary main_cst_5 (constant S_ .f32 0x00000000#32),
    unary main_cst_5 main_v26 (broadcastInDim S100000x128 ![] bcast_S_S100000x128 : (⟨S_, .f32⟩ : BufTy).Contents (Elt F) → (⟨S100000x128, .f32⟩ : BufTy).Contents (Elt F)),
    unary main_v3 main_v27 (broadcastInDim S600000x1 ![0] bcast_S600000_S600000x1_0 : (⟨S600000, .i32⟩ : BufTy).Contents (Elt F) → (⟨S600000x1, .i32⟩ : BufTy).Contents (Elt F)),
    ternary main_v26 main_v27 main_v25 main_v28 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_v14 main_v29 (Host.rsqrt : (⟨S100000, .f32⟩ : BufTy).Contents (Elt F) → (⟨S100000, .f32⟩ : BufTy).Contents (Elt F)),
    unary main_v29 main_v30 (broadcastInDim S100000x1 ![0] bcast_S100000_S100000x1_0 : (⟨S100000, .f32⟩ : BufTy).Contents (Elt F) → (⟨S100000x1, .f32⟩ : BufTy).Contents (Elt F)),
    unary main_v30 main_v31 (broadcastInDim S100000x128 ![0, 1] bcast_S100000x1_S100000x128_0_1 : (⟨S100000x1, .f32⟩ : BufTy).Contents (Elt F) → (⟨S100000x128, .f32⟩ : BufTy).Contents (Elt F)),
    binary main_v28 main_v31 main_v32 (mulf : (⟨S100000x128, .f32⟩ : BufTy).Contents (Elt F) → (⟨S100000x128, .f32⟩ : BufTy).Contents (Elt F) → (⟨S100000x128, .f32⟩ : BufTy).Contents (Elt F)),
    binary main_v32 main_arg2 main_v33 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v33 main_v35 main_v36 (addf : (⟨S100000x128, .f32⟩ : BufTy).Contents (Elt F) → (⟨S100000x128, .f32⟩ : BufTy).Contents (Elt F) → (⟨S100000x128, .f32⟩ : BufTy).Contents (Elt F)),
    binary main_arg0 main_v36 main_v37 (addf : (⟨S100000x128, .f32⟩ : BufTy).Contents (Elt F) → (⟨S100000x128, .f32⟩ : BufTy).Contents (Elt F) → (⟨S100000x128, .f32⟩ : BufTy).Contents (Elt F)) ]

/-- The column mean of `h`, then the variance as the outlined function computes it (its own mean row, the squared deviations, the divisor, the guarded quotient through the outlined select): operations 47 … 74. -/
abbrev opsC : List (HloOp τ sig (Elt F)) :=
  [ nullary main_cst_6 (constant S_ .f32 0x00000000#32),
    binary main_v37 main_cst_6 main_v38 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_7 (constant S_ .f32 0x47C35000#32),
    unary main_cst_7 main_v39 (broadcastInDim S128 ![] bcast_S_S128 : (⟨S_, .f32⟩ : BufTy).Contents (Elt F) → (⟨S128, .f32⟩ : BufTy).Contents (Elt F)),
    binary main_v38 main_v39 main_v40 (Host.divf : (⟨S128, .f32⟩ : BufTy).Contents (Elt F) → (⟨S128, .f32⟩ : BufTy).Contents (Elt F) → (⟨S128, .f32⟩ : BufTy).Contents (Elt F)),
    nullary main_c_8 (constantI S_ 32 0#32),
    nullary main_call0_cst (constant S_ .f32 0x00000000#32),
    binary main_v37 main_call0_cst main_call0_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call0_v0 main_call0_v1 (broadcastInDim S1x128 ![1] bcast_S128_S1x128_1 : (⟨S128, .f32⟩ : BufTy).Contents (Elt F) → (⟨S1x128, .f32⟩ : BufTy).Contents (Elt F)),
    nullary main_call0_cst_0 (constant S_ .f32 0x47C35000#32),
    unary main_call0_cst_0 main_call0_v2 (broadcastInDim S1x128 ![] bcast_S_S1x128 : (⟨S_, .f32⟩ : BufTy).Contents (Elt F) → (⟨S1x128, .f32⟩ : BufTy).Contents (Elt F)),
    binary main_call0_v1 main_call0_v2 main_call0_v3 (Host.divf : (⟨S1x128, .f32⟩ : BufTy).Contents (Elt F) → (⟨S1x128, .f32⟩ : BufTy).Contents (Elt F) → (⟨S1x128, .f32⟩ : BufTy).Contents (Elt F)),
    unary main_call0_v3 main_call0_v4 (broadcastInDim S100000x128 ![0, 1] bcast_S1x128_S100000x128_0_1 : (⟨S1x128, .f32⟩ : BufTy).Contents (Elt F) → (⟨S100000x128, .f32⟩ : BufTy).Contents (Elt F)),
    binary main_v37 main_call0_v4 main_call0_v5 (subf : (⟨S100000x128, .f32⟩ : BufTy).Contents (Elt F) → (⟨S100000x128, .f32⟩ : BufTy).Contents (Elt F) → (⟨S100000x128, .f32⟩ : BufTy).Contents (Elt F)),
    binary main_call0_v5 main_call0_v5 main_call0_v6 (mulf : (⟨S100000x128, .f32⟩ : BufTy).Contents (Elt F) → (⟨S100000x128, .f32⟩ : BufTy).Contents (Elt F) → (⟨S100000x128, .f32⟩ : BufTy).Contents (Elt F)),
    unary main_c_8 main_call0_v7 (sitofp .f32 : (⟨S_, .i32⟩ : BufTy).Contents (Elt F) → (⟨S_, .f32⟩ : BufTy).Contents (Elt F)),
    nullary main_call0_cst_1 (constant S_ .f32 0x47C35000#32),
    binary main_call0_cst_1 main_call0_v7 main_call0_v8 (subf : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_call0_v8 main_call0_v10 (broadcastInDim S128 ![] bcast_S_S128 : (⟨S_, .f32⟩ : BufTy).Contents (Elt F) → (⟨S128, .f32⟩ : BufTy).Contents (Elt F)),
    binary main_call0_v9 main_call0_v10 main_call0_v11 (Host.divf : (⟨S128, .f32⟩ : BufTy).Contents (Elt F) → (⟨S128, .f32⟩ : BufTy).Contents (Elt F) → (⟨S128, .f32⟩ : BufTy).Contents (Elt F)),
    nullary main_call0_cst_3 (constant S_ .f32 0x00000000#32),
    binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 (id : (⟨S_, .f32⟩ : BufTy).Contents (Elt F) → (⟨S_, .f32⟩ : BufTy).Contents (Elt F)),
    unary main_call0_call0_v0 main_call0_call0_v1 (broadcastInDim S128 ![] bcast_S_S128 : (⟨S_, .f32⟩ : BufTy).Contents (Elt F) → (⟨S128, .f32⟩ : BufTy).Contents (Elt F)),
    ternary main_call0_v12 main_call0_v11 main_call0_call0_v1 main_v41 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) ]

/-- The normalisation, the affine map with `γ` and `β`, and the outlined maximum with zero: operations 75 … 93. -/
abbrev opsD : List (HloOp τ sig (Elt F)) :=
  [ unary main_v40 main_v42 (broadcastInDim S1x128 ![1] bcast_S128_S1x128_1 : (⟨S128, .f32⟩ : BufTy).Contents (Elt F) → (⟨S1x128, .f32⟩ : BufTy).Contents (Elt F)),
    unary main_v42 main_v43 (broadcastInDim S100000x128 ![0, 1] bcast_S1x128_S100000x128_0_1 : (⟨S1x128, .f32⟩ : BufTy).Contents (Elt F) → (⟨S100000x128, .f32⟩ : BufTy).Contents (Elt F)),
    binary main_v37 main_v43 main_v44 (subf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x3727C5AC#32),
    unary main_cst_9 main_v45 (broadcastInDim S128 ![] bcast_S_S128 : (⟨S_, .f32⟩ : BufTy).Contents (Elt F) → (⟨S128, .f32⟩ : BufTy).Contents (Elt F)),
    binary main_v41 main_v45 main_v46 (addf : (⟨S128, .f32⟩ : BufTy).Contents (Elt F) → (⟨S128, .f32⟩ : BufTy).Contents (Elt F) → (⟨S128, .f32⟩ : BufTy).Contents (Elt F)),
    unary main_v46 main_v47 (Host.rsqrt : (⟨S128, .f32⟩ : BufTy).Contents (Elt F) → (⟨S128, .f32⟩ : BufTy).Contents (Elt F)),
    unary main_v47 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v44 main_v49 main_v50 (mulf : (⟨S100000x128, .f32⟩ : BufTy).Contents (Elt F) → (⟨S100000x128, .f32⟩ : BufTy).Contents (Elt F) → (⟨S100000x128, .f32⟩ : BufTy).Contents (Elt F)),
    unary main_arg4 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v50 main_v52 main_v53 (mulf : (⟨S100000x128, .f32⟩ : BufTy).Contents (Elt F) → (⟨S100000x128, .f32⟩ : BufTy).Contents (Elt F) → (⟨S100000x128, .f32⟩ : BufTy).Contents (Elt F)),
    unary main_arg5 main_v54 (broadcastInDim S1x128 ![1] bcast_S128_S1x128_1 : (⟨S128, .f32⟩ : BufTy).Contents (Elt F) → (⟨S1x128, .f32⟩ : BufTy).Contents (Elt F)),
    unary main_v54 main_v55 (broadcastInDim S100000x128 ![0, 1] bcast_S1x128_S100000x128_0_1 : (⟨S1x128, .f32⟩ : BufTy).Contents (Elt F) → (⟨S100000x128, .f32⟩ : BufTy).Contents (Elt F)),
    binary main_v53 main_v55 main_v56 (addf : (⟨S100000x128, .f32⟩ : BufTy).Contents (Elt F) → (⟨S100000x128, .f32⟩ : BufTy).Contents (Elt F) → (⟨S100000x128, .f32⟩ : BufTy).Contents (Elt F)),
    nullary main_call1_cst (constant S_ .f32 0x00000000#32),
    unary main_call1_cst main_call1_v0 (broadcastInDim S100000x128 ![] bcast_S_S100000x128 : (⟨S_, .f32⟩ : BufTy).Contents (Elt F) → (⟨S100000x128, .f32⟩ : BufTy).Contents (Elt F)),
    binary main_v56 main_call1_v0 main_v57 (maximumf : (⟨S100000x128, .f32⟩ : BufTy).Contents (Elt F) → (⟨S100000x128, .f32⟩ : BufTy).Contents (Elt F) → (⟨S100000x128, .f32⟩ : BufTy).Contents (Elt F)) ]

/-- @main's ninety-three operations, in order. -/
abbrev ops : List (HloOp τ sig (Elt F)) :=
  opsA ++ (opsB ++ (opsC ++ opsD))

/-! ## @main is that line -/

set_option maxRecDepth 16384 in
set_option maxHeartbeats 4000000 in
/-- The two windows of @main and the three outlined bodies unfolded at their calls, each call's record read at its
    fields: both sides are then one chain of single operations once sequencing is reassociated. -/
theorem main_eq (c : Dev nD) : main (F := F) c = seq ops := by
  simp only [main, main_part0, main_part1, fn_var.body, fn_where.body, fn_relu.body, ops, opsA, opsB, opsC, opsD,
    seq_append, seq, bind_assoc, pure_bind] <;> rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only -/

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., unary_bufs_sub .., ternary_bufs_sub .., nullary_bufs_sub ..,
    unary_bufs_sub .., binary_bufs_sub .., unary_bufs_sub .., unary_bufs_sub .., unary_bufs_sub .., binary_bufs_sub ..⟩
set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., unary_bufs_sub .., unary_bufs_sub .., binary_bufs_sub .., binary_bufs_sub ..,
    unary_bufs_sub .., unary_bufs_sub .., binary_bufs_sub .., binary_bufs_sub ..⟩
set_option maxRecDepth 8192 in
theorem opsC_sub : (opsC : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩
set_option maxRecDepth 8192 in
theorem opsD_sub : (opsD : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp opsA_sub op h, List.forall_iff_forall_mem.mp opsB_sub op h,
      List.forall_iff_forall_mem.mp opsC_sub op h, List.forall_iff_forall_mem.mp opsD_sub op h]

/-! ## What each stretch writes, and what it leaves alone -/

/-- A stretch's operation writes one buffer, and that buffer is on the stretch's list. -/
local macro "writes_here" : tactic =>
  `(tactic| (simp only [nullary_writes, unary_writes, binary_writes, ternary_writes, reshape_writes,
      Finset.singleton_subset_iff, List.mem_toFinset]; exact List.mem_map_of_mem (by decide)))

/-- The buffers the operations of `opsA` write. -/
abbrev opsA_W : List (Ref sig .tc) :=
  [main_v0, main_v1, main_v2, main_v3, main_cst, main_v4, main_cst_0, main_v5, main_v6, main_v7, main_cst_1, main_v8, main_v9,
   main_cst_2, main_v10, main_v11, main_v12, main_cst_3, main_v13, main_v14, main_v15, main_v16, main_v17, main_v18]
set_option maxRecDepth 8192 in
theorem opsA_writes : (opsA : List (HloOp τ sig (Elt F))).Forall fun op =>
    op.writes ⊆ (opsA_W.map (Proc.devRef (τ := τ) .tc)).toFinset := by
  simp only [List.Forall]
  exact ⟨by writes_here, by writes_here, by writes_here, by writes_here, by writes_here, by writes_here, by writes_here,
    by writes_here, by writes_here, by writes_here, by writes_here, by writes_here, by writes_here, by writes_here,
    by writes_here, by writes_here, by writes_here, by writes_here, by writes_here, by writes_here, by writes_here,
    by writes_here, by writes_here, by writes_here⟩

/-- The buffers the operations of `opsB` write. -/
abbrev opsB_W : List (Ref sig .tc) :=
  [main_c, main_v19, main_v20, main_c_4, main_v21, main_v22, main_v23, main_v24, main_v25, main_cst_5, main_v26, main_v27,
   main_v28, main_v29, main_v30, main_v31, main_v32, main_v33, main_v34, main_v35, main_v36, main_v37]
set_option maxRecDepth 8192 in
theorem opsB_writes : (opsB : List (HloOp τ sig (Elt F))).Forall fun op =>
    op.writes ⊆ (opsB_W.map (Proc.devRef (τ := τ) .tc)).toFinset := by
  simp only [List.Forall]
  exact ⟨by writes_here, by writes_here, by writes_here, by writes_here, by writes_here, by writes_here, by writes_here,
    by writes_here, by writes_here, by writes_here, by writes_here, by writes_here, by writes_here, by writes_here,
    by writes_here, by writes_here, by writes_here, by writes_here, by writes_here, by writes_here, by writes_here,
    by writes_here⟩

/-- The buffers the operations of `opsC` write. -/
abbrev opsC_W : List (Ref sig .tc) :=
  [main_cst_6, main_v38, main_cst_7, main_v39, main_v40, main_c_8, main_call0_cst, main_call0_v0, main_call0_v1,
   main_call0_cst_0, main_call0_v2, main_call0_v3, main_call0_v4, main_call0_v5, main_call0_v6, main_call0_v7, main_call0_cst_1,
   main_call0_v8, main_call0_cst_2, main_call0_v9, main_call0_v10, main_call0_v11, main_call0_cst_3, main_call0_v12,
   main_call0_cst_4, main_call0_call0_v0, main_call0_call0_v1, main_v41]
set_option maxRecDepth 8192 in
theorem opsC_writes : (opsC : List (HloOp τ sig (Elt F))).Forall fun op =>
    op.writes ⊆ (opsC_W.map (Proc.devRef (τ := τ) .tc)).toFinset := by
  simp only [List.Forall]
  exact ⟨by writes_here, by writes_here, by writes_here, by writes_here, by writes_here, by writes_here, by writes_here,
    by writes_here, by writes_here, by writes_here, by writes_here, by writes_here, by writes_here, by writes_here,
    by writes_here, by writes_here, by writes_here, by writes_here, by writes_here, by writes_here, by writes_here,
    by writes_here, by writes_here, by writes_here, by writes_here, by writes_here, by writes_here, by writes_here⟩

/-- The buffers the operations of `opsD` write. -/
abbrev opsD_W : List (Ref sig .tc) :=
  [main_v42, main_v43, main_v44, main_cst_9, main_v45, main_v46, main_v47, main_v48, main_v49, main_v50, main_v51, main_v52,
   main_v53, main_v54, main_v55, main_v56, main_call1_cst, main_call1_v0, main_v57]
set_option maxRecDepth 8192 in
theorem opsD_writes : (opsD : List (HloOp τ sig (Elt F))).Forall fun op =>
    op.writes ⊆ (opsD_W.map (Proc.devRef (τ := τ) .tc)).toFinset := by
  simp only [List.Forall]
  exact ⟨by writes_here, by writes_here, by writes_here, by writes_here, by writes_here, by writes_here, by writes_here,
    by writes_here, by writes_here, by writes_here, by writes_here, by writes_here, by writes_here, by writes_here,
    by writes_here, by writes_here, by writes_here, by writes_here, by writes_here⟩

/-! ## The contents after each stretch -/

/-- The device's buffer contents after the first stretch, from contents `V`. -/
def valA (V : Valuation τ sig (Elt F)) : Valuation τ sig (Elt F) := after opsA V
/-- … after the first two. -/
def valB (V : Valuation τ sig (Elt F)) : Valuation τ sig (Elt F) := after opsB (valA V)
/-- … after the first three. -/
def valC (V : Valuation τ sig (Elt F)) : Valuation τ sig (Elt F) := after opsC (valB V)
/-- … after all four. -/
def valD (V : Valuation τ sig (Elt F)) : Valuation τ sig (Elt F) := after opsD (valC V)

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem after_ops (V : Valuation τ sig (Elt F)) : after ops V = valD V := by
  simp only [ops, after_app]
  rfl

theorem valA_keep (V : Valuation τ sig (Elt F)) (r : Ref sig .tc) (h : r ∉ opsA_W) :
    valA V (Proc.devRef .tc r) = V (Proc.devRef .tc r) :=
  after_of_writes_sub opsA _ opsA_writes h
theorem valB_keep (V : Valuation τ sig (Elt F)) (r : Ref sig .tc) (h : r ∉ opsB_W) :
    valB V (Proc.devRef .tc r) = valA V (Proc.devRef .tc r) :=
  after_of_writes_sub opsB _ opsB_writes h
theorem valC_keep (V : Valuation τ sig (Elt F)) (r : Ref sig .tc) (h : r ∉ opsC_W) :
    valC V (Proc.devRef .tc r) = valB V (Proc.devRef .tc r) :=
  after_of_writes_sub opsC _ opsC_writes h
theorem valD_keep (V : Valuation τ sig (Elt F)) (r : Ref sig .tc) (h : r ∉ opsD_W) :
    valD V (Proc.devRef .tc r) = valC V (Proc.devRef .tc r) :=
  after_of_writes_sub opsD _ opsD_writes h

/-- A buffer no operation writes holds at the end what it held at the start. -/
theorem valD_of_unwritten (V : Valuation τ sig (Elt F)) (r : Ref sig .tc) (hA : r ∉ opsA_W) (hB : r ∉ opsB_W) (hC : r ∉ opsC_W)
    (hD : r ∉ opsD_W) : valD V (Proc.devRef .tc r) = V (Proc.devRef .tc r) :=
  (valD_keep V r hD).trans ((valC_keep V r hC).trans ((valB_keep V r hB).trans (valA_keep V r hA)))

/-! ### After the first stretch -/

theorem valA_arg0 (V : Valuation τ sig (Elt F)) : valA V (no_index (Proc.devRef .tc main_arg0)) = V (Proc.devRef .tc main_arg0) :=
  valA_keep V main_arg0 (by decide)
theorem valA_arg2 (V : Valuation τ sig (Elt F)) : valA V (no_index (Proc.devRef .tc main_arg2)) = V (Proc.devRef .tc main_arg2) :=
  valA_keep V main_arg2 (by decide)
theorem valA_arg3 (V : Valuation τ sig (Elt F)) : valA V (no_index (Proc.devRef .tc main_arg3)) = V (Proc.devRef .tc main_arg3) :=
  valA_keep V main_arg3 (by decide)
theorem valA_arg4 (V : Valuation τ sig (Elt F)) : valA V (no_index (Proc.devRef .tc main_arg4)) = V (Proc.devRef .tc main_arg4) :=
  valA_keep V main_arg4 (by decide)
theorem valA_arg5 (V : Valuation τ sig (Elt F)) : valA V (no_index (Proc.devRef .tc main_arg5)) = V (Proc.devRef .tc main_arg5) :=
  valA_keep V main_arg5 (by decide)

set_option maxHeartbeats 2000000 in
/-- Row 0 of the edge list, flattened. -/
theorem valA_v1 (V : Valuation τ sig (Elt F)) : valA V (no_index (Proc.devRef .tc main_v1)) = edgeRow0 (V (Proc.devRef .tc main_arg1)) := by
  unfold valA
  simp only [opsA]
  after_results_simp <;> rfl

set_option maxHeartbeats 2000000 in
/-- Row 1 of the edge list, flattened. -/
theorem valA_v3 (V : Valuation τ sig (Elt F)) : valA V (no_index (Proc.devRef .tc main_v3)) = edgeRow1 (V (Proc.devRef .tc main_arg1)) := by
  unfold valA
  simp only [opsA]
  after_results_simp <;> rfl

set_option maxHeartbeats 2000000 in
/-- The in-degree by row 1, at least one: ones accumulated into zeros at the row's entries, then the maximum with one. -/
theorem valA_v14 (V : Valuation τ sig (Elt F)) : valA V (no_index (Proc.devRef .tc main_v14))
    = (maximumf
        (Host.scatterAdd scatter_S100000_S600000x1_S600000_n_0_0_1
          (broadcastInDim S100000 ![] bcast_S_S100000 (constant S_ .f32 0x00000000#32))
          (asColumn (edgeRow1 (V (Proc.devRef .tc main_arg1))))
          (broadcastInDim S600000 ![] bcast_S_S600000 (constant S_ .f32 0x3F800000#32)))
        (broadcastInDim S100000 ![] bcast_S_S100000 (constant S_ .f32 0x3F800000#32))) := by
  unfold valA
  simp only [opsA]
  after_results_simp <;> rfl

set_option maxHeartbeats 2000000 in
/-- The rows of `x`, each scaled by its node's factor by row 0. -/
theorem valA_v18 (V : Valuation τ sig (Elt F)) : valA V (no_index (Proc.devRef .tc main_v18))
    = mulf (V (Proc.devRef .tc main_arg0)) (perNode (invSqrtDeg (edgeRow0 (V (Proc.devRef .tc main_arg1))))) := by
  unfold valA
  simp only [opsA]
  after_results_simp <;> rfl

/-! ### After the second stretch -/

theorem valB_arg4 (V : Valuation τ sig (Elt F)) : valB V (no_index (Proc.devRef .tc main_arg4)) = V (Proc.devRef .tc main_arg4) :=
  (valB_keep V main_arg4 (by decide)).trans (valA_arg4 V)
theorem valB_arg5 (V : Valuation τ sig (Elt F)) : valB V (no_index (Proc.devRef .tc main_arg5)) = V (Proc.devRef .tc main_arg5) :=
  (valB_keep V main_arg5 (by decide)).trans (valA_arg5 V)

set_option maxHeartbeats 2000000 in
/-- h = x + (agg · W + b): the gather reads the scaled rows at the wrapped sources, the accumulation runs over the
    destinations, and the destination factor is the reciprocal root of the clamped in-degree by row 1. -/
theorem valB_v37 (V : Valuation τ sig (Elt F)) : valB V (no_index (Proc.devRef .tc main_v37)) = (hR (V (Proc.devRef .tc main_arg0)) (V (Proc.devRef .tc main_arg1)) (V (Proc.devRef .tc main_arg2)) (V (Proc.devRef .tc main_arg3))) := by
  unfold valB
  simp only [opsB]
  after_results_simp
  simp only [valA_v1, valA_v3, valA_v14, valA_v18, valA_arg0, valA_arg2, valA_arg3] <;> rfl

/-! ### After the third stretch -/

theorem valC_arg4 (V : Valuation τ sig (Elt F)) : valC V (no_index (Proc.devRef .tc main_arg4)) = V (Proc.devRef .tc main_arg4) :=
  (valC_keep V main_arg4 (by decide)).trans (valB_arg4 V)
theorem valC_arg5 (V : Valuation τ sig (Elt F)) : valC V (no_index (Proc.devRef .tc main_arg5)) = V (Proc.devRef .tc main_arg5) :=
  (valC_keep V main_arg5 (by decide)).trans (valB_arg5 V)
theorem valC_v37 (V : Valuation τ sig (Elt F)) : valC V (no_index (Proc.devRef .tc main_v37)) = (hR (V (Proc.devRef .tc main_arg0)) (V (Proc.devRef .tc main_arg1)) (V (Proc.devRef .tc main_arg2)) (V (Proc.devRef .tc main_arg3))) :=
  (valC_keep V main_v37 (by decide)).trans (valB_v37 V)

set_option maxHeartbeats 2000000 in
/-- The column mean of h. -/
theorem valC_v40 (V : Valuation τ sig (Elt F)) : valC V (no_index (Proc.devRef .tc main_v40)) = meanR (hR (V (Proc.devRef .tc main_arg0)) (V (Proc.devRef .tc main_arg1)) (V (Proc.devRef .tc main_arg2)) (V (Proc.devRef .tc main_arg3))) := by
  unfold valC
  simp only [opsC]
  after_results_simp
  simp only [valB_v37] <;> rfl

set_option maxHeartbeats 2000000 in
/-- The column variance of h, as the outlined function computes it: the guarded quotient of the summed squared
    deviations (from the function's own mean row) by the divisor. -/
theorem valC_v41 (V : Valuation τ sig (Elt F)) : valC V (no_index (Proc.devRef .tc main_v41)) = varR (hR (V (Proc.devRef .tc main_arg0)) (V (Proc.devRef .tc main_arg1)) (V (Proc.devRef .tc main_arg2)) (V (Proc.devRef .tc main_arg3))) := by
  unfold valC
  simp only [opsC]
  after_results_simp
  simp only [valB_v37] <;> rfl

/-! ### After the last stretch -/

set_option maxHeartbeats 2000000 in
/-- The result: the normalised h under the affine map, clamped below at zero. -/
theorem valD_v57 (V : Valuation τ sig (Elt F)) : valD V (no_index (Proc.devRef .tc main_v57))
    = refOut (V (Proc.devRef .tc main_arg0)) (V (Proc.devRef .tc main_arg1)) (V (Proc.devRef .tc main_arg2)) (V (Proc.devRef .tc main_arg3)) (V (Proc.devRef .tc main_arg4)) (V (Proc.devRef .tc main_arg5)) := by
  unfold valD
  simp only [opsD]
  after_results_simp
  simp only [valC_v37, valC_v40, valC_v41, valC_arg4, valC_arg5] <;> rfl

/-! ## The run -/

/-- On the one device, for any float values, from any memory with zero counters: every weakly fair execution of @main
    terminates with the result buffer at `HostTerm.refOut` of the six arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
          = HostTerm.refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v57).trans (by simp only [after_ops]; exact valD_v57 (launchContents m c)),
       (h c main_arg0).trans (by simp only [after_ops]; exact valD_of_unwritten (launchContents m c) main_arg0 (by decide) (by decide) (by decide) (by decide)),
       (h c main_arg1).trans (by simp only [after_ops]; exact valD_of_unwritten (launchContents m c) main_arg1 (by decide) (by decide) (by decide) (by decide)),
       (h c main_arg2).trans (by simp only [after_ops]; exact valD_of_unwritten (launchContents m c) main_arg2 (by decide) (by decide) (by decide) (by decide)),
       (h c main_arg3).trans (by simp only [after_ops]; exact valD_of_unwritten (launchContents m c) main_arg3 (by decide) (by decide) (by decide) (by decide)),
       (h c main_arg4).trans (by simp only [after_ops]; exact valD_of_unwritten (launchContents m c) main_arg4 (by decide) (by decide) (by decide) (by decide)),
       (h c main_arg5).trans (by simp only [after_ops]; exact valD_of_unwritten (launchContents m c) main_arg5 (by decide) (by decide) (by decide) (by decide))⟩)
    (run_seq scopedRefs_eq scopedSems_eq defs main (fun _ => ops) main_eq (fun _ => ops_sub) m ρ)

end Cert.ReferenceIdeal.RefRun

end
-- ==== Proof.RefValue.lean ====
/-
  The reference's result, read entry by entry.
  h(n, j) = x(n, j) + (Σ_k agg(n, k) · W(k, j) + b(j)) is the specification's residual-plus-linear layer. For the tail,
  at entry (n, j):
     s(j)    = 0 + Σ_n h(n, j)                                   (a host sum starts from its initial value)
     mean(j) = s(j) / 100000
     var(j)  = (0 + Σ_n (h(n, j) − mean(j))²) / (100000 − 0)     (the divisor's comparison with zero holds)
     out     = max( ((h(n, j) − mean(j)) · rsqrt(var(j) + ε)) · γ(j) + β(j), 0 ).
-/
import proofs.«108725_j43920335568926_2_alg».proof.Proof.RefTerm
import proofs.«108725_j43920335568926_2_alg».proof.Proof.Spec
import proofs.«108725_j43920335568926_2_alg».proof.Proof.RealLaws
import proofs.«108725_j43920335568926_2_alg».proof.Proof.Stats
import Idealize.ShloMosaic.Lib.Pipeline.Value
import Idealize.ShloMosaic.Lib.ValueIdx
import Idealize.ShloMosaic.Lib.IdealHost
import Idealize.ShloMosaic.Lib.StackMember
import Idealize.ShloMosaic.PureOps.Ideal.Laws

noncomputable section

namespace Cert.ReferenceIdeal.RefValue

open Cert.ReferenceIdeal Cert.ReferenceIdeal.Gen Cert.ReferenceIdeal.HostTerm
open Idealize.ShloMosaic Idealize.ShloMosaic.ValueIdx Cert.RealLaws

/-- A per-feature value spread down the rows, read at (n, j): the value of feature j. -/
theorem perFeature_apply (v : FVec Ideal S128 .f32) (n : Fin 100000) (j : Fin 128) :
    perFeature v (ix2 n j) = v (ix1 j) := by
  unfold perFeature
  refine (broadcastInDim_apply _ _ _ (ix2 n j) (ix2 (0 : Fin 1) j) ?_).trans
    (broadcastInDim_apply _ _ _ (ix2 (0 : Fin 1) j) (ix1 j) ?_)
  · intro a
    match a with
    | ⟨0, _⟩ => rfl
    | ⟨1, _⟩ => rfl
  · intro a
    match a with
    | ⟨0, _⟩ => rfl

/-- h is the specification's residual-plus-linear layer of x, the aggregated neighbourhood, W and b. -/
theorem hR_eq (x : FVec Ideal S100000x128 .f32) (ei : IVec S2x600000 32) (w : FVec Ideal S128x128 .f32)
    (b : FVec Ideal S128 .f32) :
    hR (F := Ideal) x ei w b = Cert.Spec.hres x (aggR x ei) w (Cert.Spec.rowOf b) := by
  funext i
  obtain ⟨n, j, rfl⟩ : ∃ (n : Fin 100000) (j : Fin 128), i = ix2 n j := ⟨i 0, i 1, eq_ix2 i⟩
  unfold hR Cert.Spec.hres
  rw [addf_apply, addf_apply, perFeature_apply]
  refine congrArg₂ (· + ·) rfl (congrArg₂ (· + ·) ?_ rfl)
  exact StackMember.dotGeneral_plain_apply none (aggR x ei) w n j

/-- The column sum at feature j: the initial zero word plus the sum over all rows. -/
theorem colSumR_apply (h : FVec Ideal S100000x128 .f32) (j : Fin 128) :
    colSumR (F := Ideal) h (ix1 j) = Ideal.ofBits .f32 0x00000000#32 + ∑ n : Fin 100000, h (ix2 n j) := by
  unfold colSumR
  rw [hostReduceAdd_apply]
  refine (Ideal.hostReduceAdd_single reducesTo_S100000x128_S128_d0 (by decide : S100000x128.Reduces [0] S128) h _ (ix1 j)).trans ?_
  refine congrArg₂ (· + ·) rfl (Finset.sum_congr rfl fun k _ => congrArg h ?_)
  funext a
  apply Fin.ext
  match a with
  | ⟨0, _⟩ => rfl
  | ⟨1, _⟩ => rfl

/-! ## The tail's stages at an index -/

/-- A [128] vector made a [1, 128] row, read at (0, j): entry j. -/
theorem asRow_apply (v : FVec Ideal S128 .f32) (j : Fin 128) :
    broadcastInDim S1x128 ![1] bcast_S128_S1x128_1 v (ix2 (0 : Fin 1) j) = v (ix1 j) := by
  refine broadcastInDim_apply _ _ _ (ix2 (0 : Fin 1) j) (ix1 j) ?_
  intro a
  match a with
  | ⟨0, _⟩ => rfl

/-- A [1, 128] row spread down the rows, read at (n, j): the row's entry (0, j). -/
theorem downRows_apply (r : FVec Ideal S1x128 .f32) (n : Fin 100000) (j : Fin 128) :
    broadcastInDim S100000x128 ![0, 1] bcast_S1x128_S100000x128_0_1 r (ix2 n j) = r (ix2 (0 : Fin 1) j) := by
  refine broadcastInDim_apply _ _ _ (ix2 n j) (ix2 (0 : Fin 1) j) ?_
  intro a
  match a with
  | ⟨0, _⟩ => rfl
  | ⟨1, _⟩ => rfl

/-- mean(j) = (Σ_n h(n, j)) / 100000 is the specification's mean row at (0, j). -/
theorem meanR_apply (h : FVec Ideal S100000x128 .f32) (j : Fin 128) :
    meanR (F := Ideal) h (ix1 j) = Cert.Spec.meanRow h (ix2 (0 : Fin 1) j) := by
  unfold meanR
  show Ideal.div (colSumR h (ix1 j)) (broadcastInDim S128 ![] bcast_S_S128 (constant (F := Ideal) S_ .f32 0x47C35000#32) (ix1 j)) = _
  rw [colSumR_apply, broadcastInDim_scalar_apply, Ideal.ofBits_zero_f32, zero_add]
  rfl

/-- The mean the variance computes for itself is the same row. -/
theorem meanRowR_apply (h : FVec Ideal S100000x128 .f32) (j : Fin 128) :
    meanRowR (F := Ideal) h (ix2 (0 : Fin 1) j) = Cert.Spec.meanRow h (ix2 (0 : Fin 1) j) := by
  unfold meanRowR
  show Ideal.div (broadcastInDim S1x128 ![1] bcast_S128_S1x128_1 (colSumR h) (ix2 (0 : Fin 1) j))
      (broadcastInDim S1x128 ![] bcast_S_S1x128 (constant (F := Ideal) S_ .f32 0x47C35000#32) (ix2 (0 : Fin 1) j)) = _
  rw [asRow_apply, colSumR_apply, broadcastInDim_scalar_apply, Ideal.ofBits_zero_f32, zero_add]
  rfl

/-- The squared deviation at (n, j). -/
theorem devSqR_apply (h : FVec Ideal S100000x128 .f32) (n : Fin 100000) (j : Fin 128) :
    devSqR (F := Ideal) h (ix2 n j)
      = (h (ix2 n j) - Cert.Spec.meanRow h (ix2 (0 : Fin 1) j)) * (h (ix2 n j) - Cert.Spec.meanRow h (ix2 (0 : Fin 1) j)) := by
  unfold devSqR
  rw [mulf_apply, subf_apply, downRows_apply, meanRowR_apply]

/-- The variance's divisor: 100000 minus the integer zero converted, which is 100000. -/
theorem divisorR_val : divisorR (F := Ideal) ix0 = ((100000 : ℝ) : EReal) := by
  unfold divisorR
  show Ideal.ofBits .f32 0x47C35000#32 - (((0#32 : BitVec 32).toInt : ℝ) : EReal) = _
  rw [word_count]
  simp

/-- var(j): the divisor is positive, so the quotient is taken: (Σ_n (h(n, j) − mean(j))²) / 100000. -/
theorem varR_apply (h : FVec Ideal S100000x128 .f32) (j : Fin 128) :
    varR (F := Ideal) h (ix1 j)
      = Ideal.div (∑ n : Fin 100000, (h (ix2 n j) - Cert.Spec.meanRow h (ix2 (0 : Fin 1) j))
          * (h (ix2 n j) - Cert.Spec.meanRow h (ix2 (0 : Fin 1) j))) ((100000 : ℝ) : EReal) := by
  unfold varR
  rw [select_apply]
  have hc : broadcastInDim S128 ![] bcast_S_S128 (cmpf .ogt (divisorR (F := Ideal)) (constant S_ .f32 0x00000000#32)) (ix1 j) = 1#1 := by
    rw [broadcastInDim_scalar_apply]
    show Ideal.cmp .ogt (divisorR (F := Ideal) ix0) (Ideal.ofBits .f32 0x00000000#32) = 1#1
    rw [divisorR_val, Ideal.ofBits_zero_f32]
    have hpos : (0 : EReal) < ((100000 : ℝ) : EReal) := by exact_mod_cast (by norm_num : (0 : ℝ) < 100000)
    simp [Ideal.cmp, hpos]
  rw [hc, select_one]
  show Ideal.div (colSumR (devSqR h) (ix1 j)) (broadcastInDim S128 ![] bcast_S_S128 (divisorR (F := Ideal)) (ix1 j)) = _
  rw [colSumR_apply, broadcastInDim_scalar_apply, divisorR_val, Ideal.ofBits_zero_f32, zero_add]
  have hs : ∑ n : Fin 100000, devSqR (F := Ideal) h (ix2 n j)
      = ∑ n : Fin 100000, (h (ix2 n j) - Cert.Spec.meanRow h (ix2 (0 : Fin 1) j))
          * (h (ix2 n j) - Cert.Spec.meanRow h (ix2 (0 : Fin 1) j)) :=
    Finset.sum_congr rfl fun n _ => devSqR_apply h n j
  rw [hs]

/-- For real h the reference's variance is the specification's variance row. -/
theorem varR_eq (h : FVec Ideal S100000x128 .f32) (hh : ∀ i, IsReal (h i)) (j : Fin 128) :
    varR (F := Ideal) h (ix1 j) = Cert.Spec.varRow h (ix2 (0 : Fin 1) j) := by
  rw [varR_apply, Cert.Spec.varRow_centred h hh]

/-- For real h the reference's tail is the specification's normalise-scale-shift-clamp over the mean and variance rows. -/
theorem tailR_eq (h : FVec Ideal S100000x128 .f32) (γ β : FVec Ideal S128 .f32) (hh : ∀ i, IsReal (h i)) :
    tailR (F := Ideal) h γ β = Cert.Spec.normRelu h (Cert.Spec.meanRow h) (Cert.Spec.varRow h) (Cert.Spec.rowOf γ) (Cert.Spec.rowOf β) := by
  funext i
  obtain ⟨n, j, rfl⟩ : ∃ (n : Fin 100000) (j : Fin 128), i = ix2 n j := ⟨i 0, i 1, eq_ix2 i⟩
  unfold tailR Cert.Spec.normRelu
  rw [maximumf_apply, addf_apply, mulf_apply, mulf_apply, subf_apply, perFeature_apply, perFeature_apply,
    perFeature_apply, perFeature_apply, meanR_apply, broadcastInDim_scalar_apply]
  show max ((((h (ix2 n j) - Cert.Spec.meanRow h (ix2 (0 : Fin 1) j))
        * Ideal.rsqrt (varR (F := Ideal) h (ix1 j) + Ideal.ofBits .f32 0x3727C5AC#32)) * γ (ix1 j)) + β (ix1 j))
      (Ideal.ofBits .f32 0x00000000#32) = _
  rw [varR_eq h hh]
  rfl

end Cert.ReferenceIdeal.RefValue

end
-- ==== Proof.RefReal.lean ====
/-
  Every entry of h is a real number when every entry of x, W and b is.
  An accumulating scatter leaves at each entry the operand's entry plus a finite sum of update entries: real when all
  of those are. A gather's entries are entries of its table. A degree count is zero plus a sum of ones, a real; clipped
  below at one it is a real that is at least one, so its inverse square root is real. Hence the aggregated
  neighbourhood is real entry by entry, and h = x + (agg · W + b), a finite combination of reals, is too.
-/
import proofs.«108725_j43920335568926_2_alg».proof.Proof.RefTerm
import proofs.«108725_j43920335568926_2_alg».proof.Proof.RealLaws
import proofs.«108725_j43920335568926_2_alg».proof.Proof.RefValue
import Idealize.ShloMosaic.Lib.Pipeline.Value
import Idealize.ShloMosaic.Lib.ValueIdx
import Idealize.ShloMosaic.Lib.IdealHost
import Idealize.ShloMosaic.Lib.StackMember
import Idealize.ShloMosaic.PureOps.Ideal.Laws

noncomputable section

namespace Cert.ReferenceIdeal.RefReal

open Cert.ReferenceIdeal Cert.ReferenceIdeal.Gen Cert.ReferenceIdeal.HostTerm
open Idealize.ShloMosaic Idealize.ShloMosaic.ValueIdx Cert.RealLaws

/-- An accumulating scatter of real updates into a real operand is real at every entry. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- A gather from a table of reals is real at every entry. -/
theorem gather_real {s si t : Shape} {w : Nat} (d : GatherDims s si t) (x : FVec Ideal s .f32) (idx : IVec si w)
    (hx : ∀ i, IsReal (x i)) (j : t.Idx) : IsReal (Host.gather d x idx j) := hx _

/-- A constant word that denotes a real, spread over any shape, is real at every entry. -/
theorem splat_real {s : Shape} (hb : S_.BroadcastsInDim s (![] : Fin 0 → Fin s.rank)) (wd : BitVec 32)
    (hw : IsReal (Ideal.ofBits .f32 wd)) (i : s.Idx) :
    IsReal (broadcastInDim s ![] hb (constant (F := Ideal) S_ .f32 wd) i) := by
  rw [broadcastInDim_scalar_apply hb _ i]
  exact hw

/-- The host's inverse square root is taken entry by entry. -/
theorem hostRsqrt_apply {s : Shape} (v : FVec Ideal s .f32) (i : s.Idx) : Host.rsqrt v i = Ideal.rsqrt (v i) := rfl

theorem zeroWord_real : IsReal (Ideal.ofBits .f32 0x00000000#32) := by
  rw [Ideal.ofBits_zero_f32]; exact isReal_zero

theorem oneWord_real : IsReal (Ideal.ofBits .f32 0x3F800000#32) := by
  rw [word_one]; exact isReal_coe 1

/-- The inverse square root of a clipped degree count is real at every node. -/
theorem invSqrtDeg_real (row : IVec S600000 32) (n : S100000.Idx) : IsReal (invSqrtDeg (F := Ideal) row n) := by
  unfold invSqrtDeg
  rw [hostRsqrt_apply, maximumf_apply]
  have hcount := scatterAdd_real scatter_S100000_S600000x1_S600000_n_0_0_1
    (broadcastInDim S100000 ![] bcast_S_S100000 (constant (F := Ideal) S_ .f32 0x00000000#32)) (asColumn row)
    (broadcastInDim S600000 ![] bcast_S_S600000 (constant (F := Ideal) S_ .f32 0x3F800000#32))
    (splat_real bcast_S_S100000 _ zeroWord_real) (splat_real bcast_S_S600000 _ oneWord_real) n
  have hone : broadcastInDim S100000 ![] bcast_S_S100000 (constant (F := Ideal) S_ .f32 0x3F800000#32) n = 1 := by
    rw [broadcastInDim_scalar_apply bcast_S_S100000 _ n]
    show Ideal.ofBits .f32 0x3F800000#32 = 1
    rw [word_one, EReal.coe_one]
  refine IsReal.rsqrt_of_one_le (hcount.max ?_) ?_
  · rw [hone]; exact isReal_one
  · rw [hone]; exact le_max_right _ _

/-- A per-node value spread along the features, read at (n, d): the value of node n. -/
theorem perNode_apply (v : FVec Ideal S100000 .f32) (n : Fin 100000) (d : Fin 128) :
    perNode v (ix2 n d) = v (ix1 n) := by
  unfold perNode
  refine (broadcastInDim_apply _ _ _ (ix2 n d) (ix2 n (0 : Fin 1)) ?_).trans
    (broadcastInDim_apply _ _ _ (ix2 n (0 : Fin 1)) (ix1 n) ?_)
  · intro a
    match a with
    | ⟨0, _⟩ => rfl
    | ⟨1, _⟩ => rfl
  · intro a
    match a with
    | ⟨0, _⟩ => rfl

theorem perNode_real (v : FVec Ideal S100000 .f32) (hv : ∀ n, IsReal (v n)) (i : S100000x128.Idx) : IsReal (perNode v i) := by
  obtain ⟨n, d, rfl⟩ : ∃ (n : Fin 100000) (d : Fin 128), i = ix2 n d := ⟨i 0, i 1, eq_ix2 i⟩
  rw [perNode_apply]; exact hv _

/-- The aggregated neighbourhood of a real x is real at every entry. -/
theorem aggR_real (x : FVec Ideal S100000x128 .f32) (ei : IVec S2x600000 32) (hx : ∀ i, IsReal (x i)) (i : S100000x128.Idx) :
    IsReal (aggR (F := Ideal) x ei i) := by
  unfold aggR
  rw [mulf_apply]
  refine IsReal.mul (scatterAdd_real _ _ _ _ (splat_real bcast_S_S100000x128 _ zeroWord_real) (fun j => ?_) i)
    (perNode_real _ (invSqrtDeg_real _) i)
  refine gather_real _ _ _ (fun k => ?_) j
  rw [mulf_apply]
  exact (hx k).mul (perNode_real _ (invSqrtDeg_real _) k)

/-- h = x + (agg · W + b) is real at every entry when x, W and b are. -/
theorem hR_real (x : FVec Ideal S100000x128 .f32) (ei : IVec S2x600000 32) (w : FVec Ideal S128x128 .f32)
    (b : FVec Ideal S128 .f32) (hx : ∀ i, IsReal (x i)) (hw : ∀ i, IsReal (w i)) (hb : ∀ i, IsReal (b i))
    (i : S100000x128.Idx) : IsReal (hR (F := Ideal) x ei w b i) := by
  rw [RefValue.hR_eq]
  unfold Cert.Spec.hres Cert.Spec.rowOf
  exact (hx i).add ((IsReal.sum _ _ fun k _ => (aggR_real x ei hx _).mul (hw _)).add (hb _))

end Cert.ReferenceIdeal.RefReal

end
-- ==== Proof.Head.lean ====
/-
  The two programs aggregate the same neighbourhood.
  A gather of rows reads, for edge e, the row pick(e) = min( toNat(signed idx(e, 0)), 99999 ) of its table — the edge's
  node index clamped into range — and the column it is asked for; a gather from a per-node vector reads entry pick(e).
  So gathering the rows of x and then scaling edge e's row by the gathered factor r(pick(e)) gives, entry by entry,
  x(pick(e), d) · r(pick(e)), which is also what gathering the rows of the already scaled table x · r gives:
  a gather commutes with a scaling of whole rows. Everything around that step is the same composition of operations
  in both programs.
-/
import proofs.«108725_j43920335568926_2_alg».proof.Proof.KTerm
import proofs.«108725_j43920335568926_2_alg».proof.Proof.RefTerm
import Idealize.ShloMosaic.Lib.Pipeline.Value
import Idealize.ShloMosaic.Lib.ValueIdx

noncomputable section

namespace Cert.Head

open Idealize.ShloMosaic Idealize.ShloMosaic.ValueIdx

/-- The row a gather reads for edge `e`: the edge's node index read signed, clamped into [0, 99999]. -/
def pickRow (idx : IVec ⟨2, ![600000, 1]⟩ 32) (e : Fin 600000) : Fin 100000 :=
  ⟨min (idx (ix2 e (0 : Fin 1))).toInt.toNat 99999, by omega⟩

section
open Cert.KernelIdeal (gather_S100000x128_S600000x1_S600000x128_1_0_n_n_0_1_1128 gather_S100000_S600000x1_S600000_n_0_n_n_0_1_1)

/-- The position in the index array that edge `e`'s (only) index component is read at: (e, 0). -/
theorem rows_siIdx (e : Fin 600000) (d : Fin 128)
    (k : Fin gather_S100000x128_S600000x1_S600000x128_1_0_n_n_0_1_1128.startIndexMap.length) :
    gather_S100000x128_S600000x1_S600000x128_1_0_n_n_0_1_1128.siIdx (ix2 e d) k = ix2 e (0 : Fin 1) := by
  funext b; refine Fin.ext ?_
  match b with
  | ⟨0, _⟩ => rfl
  | ⟨1, _⟩ =>
    show k.val = 0
    have hk : k.val < 1 := k.isLt
    omega

/-- The row a row gather reads for result (e, d): the clamped node index of edge e. -/
theorem rows_idx0 (idx : IVec ⟨2, ![600000, 1]⟩ 32) (e : Fin 600000) (d : Fin 128) :
    (gather_S100000x128_S600000x1_S600000x128_1_0_n_n_0_1_1128.operandIdx (ix2 e d) idx 0).val
      = min (idx (ix2 e (0 : Fin 1))).toInt.toNat 99999 := by
  show gather_S100000x128_S600000x1_S600000x128_1_0_n_n_0_1_1128.start (ix2 e d) idx 0
      + gather_S100000x128_S600000x1_S600000x128_1_0_n_n_0_1_1128.batchCoord (ix2 e d) 0
      + gather_S100000x128_S600000x1_S600000x128_1_0_n_n_0_1_1128.offCoord (ix2 e d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S100000x128_S600000x1_S600000x128_1_0_n_n_0_1_1128.startIndexMap from by decide)]
  rw [rows_siIdx]
  rfl

/-- The column a row gather reads for result (e, d): d. -/
theorem rows_idx1 (idx : IVec ⟨2, ![600000, 1]⟩ 32) (e : Fin 600000) (d : Fin 128) :
    (gather_S100000x128_S600000x1_S600000x128_1_0_n_n_0_1_1128.operandIdx (ix2 e d) idx 1).val = d.val := by
  show gather_S100000x128_S600000x1_S600000x128_1_0_n_n_0_1_1128.start (ix2 e d) idx 1
      + gather_S100000x128_S600000x1_S600000x128_1_0_n_n_0_1_1128.batchCoord (ix2 e d) 1
      + gather_S100000x128_S600000x1_S600000x128_1_0_n_n_0_1_1128.offCoord (ix2 e d) 1 = _
  have hs : gather_S100000x128_S600000x1_S600000x128_1_0_n_n_0_1_1128.start (ix2 e d) idx 1 = 0 := by
    unfold GatherDims.start
    rw [dif_neg (show (1 : Fin 2) ∉ gather_S100000x128_S600000x1_S600000x128_1_0_n_n_0_1_1128.startIndexMap from by decide)]
  have ho : gather_S100000x128_S600000x1_S600000x128_1_0_n_n_0_1_1128.offCoord (ix2 e d) 1 = d.val := by
    unfold GatherDims.offCoord
    rw [dif_pos (show (1 : Fin 2) ∈ gather_S100000x128_S600000x1_S600000x128_1_0_n_n_0_1_1128.sKept from by decide)]
    rfl
  rw [hs, GatherDims.batchCoord_eq_zero _ _ _ List.not_mem_nil, ho]
  simp

/-- A gather of whole rows of a [100000, 128] table, read at (e, d): the table at (pick(e), d). -/
theorem gatherRows_apply {α : Type} (x : (⟨2, ![100000, 128]⟩ : Shape).Idx → α) (idx : IVec ⟨2, ![600000, 1]⟩ 32)
    (e : Fin 600000) (d : Fin 128) :
    Host.gather gather_S100000x128_S600000x1_S600000x128_1_0_n_n_0_1_1128 x idx (ix2 e d)
      = x (ix2 (pickRow idx e) d) := by
  unfold Host.gather
  refine congrArg x (funext fun a => Fin.ext ?_)
  match a with
  | ⟨0, _⟩ => exact rows_idx0 idx e d
  | ⟨1, _⟩ => exact rows_idx1 idx e d

/-- The position in the index array that edge `e`'s index is read at, for the gather from a vector: (e, 0). -/
theorem entries_siIdx (e : Fin 600000)
    (k : Fin gather_S100000_S600000x1_S600000_n_0_n_n_0_1_1.startIndexMap.length) :
    gather_S100000_S600000x1_S600000_n_0_n_n_0_1_1.siIdx (ix1 e) k = ix2 e (0 : Fin 1) := by
  funext b; refine Fin.ext ?_
  match b with
  | ⟨0, _⟩ => rfl
  | ⟨1, _⟩ =>
    show k.val = 0
    have hk : k.val < 1 := k.isLt
    omega

/-- A gather from a per-node [100000] vector, read at e: the vector at pick(e). -/
theorem gatherEntries_apply {α : Type} (r : (⟨1, ![100000]⟩ : Shape).Idx → α) (idx : IVec ⟨2, ![600000, 1]⟩ 32)
    (e : Fin 600000) :
    Host.gather gather_S100000_S600000x1_S600000_n_0_n_n_0_1_1 r idx (ix1 e) = r (ix1 (pickRow idx e)) := by
  unfold Host.gather
  refine congrArg r (funext fun a => Fin.ext ?_)
  match a with
  | ⟨0, _⟩ =>
    show gather_S100000_S600000x1_S600000_n_0_n_n_0_1_1.start (ix1 e) idx 0
        + gather_S100000_S600000x1_S600000_n_0_n_n_0_1_1.batchCoord (ix1 e) 0
        + gather_S100000_S600000x1_S600000_n_0_n_n_0_1_1.offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gather_S100000_S600000x1_S600000_n_0_n_n_0_1_1.startIndexMap from by decide)]
    rw [entries_siIdx]
    rfl

end

/-! ## A scaling of whole rows commutes with the gather -/

section
open Cert.KernelIdeal (S100000 S100000x128 S600000 S600000x128 S2x600000)

/-- A per-node value spread along the features, read at (n, d): the value of node n. -/
theorem perNode_apply (v : FVec Ideal S100000 .f32) (n : Fin 100000) (d : Fin 128) :
    Cert.KernelIdeal.HostTerm.perNode v (ix2 n d) = v (ix1 n) := by
  unfold Cert.KernelIdeal.HostTerm.perNode
  refine (broadcastInDim_apply _ _ _ (ix2 n d) (ix2 n (0 : Fin 1)) ?_).trans
    (broadcastInDim_apply _ _ _ (ix2 n (0 : Fin 1)) (ix1 n) ?_)
  · intro a
    match a with
    | ⟨0, _⟩ => rfl
    | ⟨1, _⟩ => rfl
  · intro a
    match a with
    | ⟨0, _⟩ => rfl

/-- A per-edge value spread along the features, read at (e, d): the value of edge e. -/
theorem perEdge_apply (v : FVec Ideal S600000 .f32) (e : Fin 600000) (d : Fin 128) :
    Cert.KernelIdeal.HostTerm.perEdge v (ix2 e d) = v (ix1 e) := by
  unfold Cert.KernelIdeal.HostTerm.perEdge
  refine (broadcastInDim_apply _ _ _ (ix2 e d) (ix2 e (0 : Fin 1)) ?_).trans
    (broadcastInDim_apply _ _ _ (ix2 e (0 : Fin 1)) (ix1 e) ?_)
  · intro a
    match a with
    | ⟨0, _⟩ => rfl
    | ⟨1, _⟩ => rfl
  · intro a
    match a with
    | ⟨0, _⟩ => rfl

/-- Gather the rows, then scale edge e's row by the gathered factor of its node: the gather of the scaled table. -/
theorem gather_scaled (x : FVec Ideal S100000x128 .f32) (r : FVec Ideal S100000 .f32) (idx : IVec ⟨2, ![600000, 1]⟩ 32) :
    mulf (Host.gather Cert.KernelIdeal.gather_S100000x128_S600000x1_S600000x128_1_0_n_n_0_1_1128 x idx)
        (Cert.KernelIdeal.HostTerm.perEdge (Host.gather Cert.KernelIdeal.gather_S100000_S600000x1_S600000_n_0_n_n_0_1_1 r idx))
      = Host.gather Cert.KernelIdeal.gather_S100000x128_S600000x1_S600000x128_1_0_n_n_0_1_1128
          (mulf x (Cert.KernelIdeal.HostTerm.perNode r)) idx := by
  funext j
  obtain ⟨e, d, rfl⟩ : ∃ (e : Fin 600000) (d : Fin 128), j = ix2 e d := ⟨j 0, j 1, eq_ix2 j⟩
  rw [mulf_apply, gatherRows_apply, gatherRows_apply, mulf_apply, perEdge_apply, gatherEntries_apply, perNode_apply]

/-- The two programs' aggregated neighbourhoods are one array. -/
theorem agg_eq (x : FVec Ideal S100000x128 .f32) (ei : IVec S2x600000 32) :
    Cert.KernelIdeal.HostTerm.aggK (F := Ideal) x ei = Cert.ReferenceIdeal.HostTerm.aggR (F := Ideal) x ei := by
  unfold Cert.KernelIdeal.HostTerm.aggK
  rw [gather_scaled]
  rfl

end

end Cert.Head

end
-- ==== Proof.Finite.lean ====
/-
  From the precondition to real numbers.
  The precondition says of each of the five float arguments that all of its entries have an absolute value that compares
  below +inf, the five facts joined by "and". An extended real whose absolute value max(x, −x) is below +inf is neither
  +inf nor −inf: it is a real number. So under the precondition every entry of x, W, b, γ and β is real.
-/
import proofs.«108725_j43920335568926_2_alg».proof.Proof.Gen.Pre_finite_inputs
import proofs.«108725_j43920335568926_2_alg».proof.Proof.RealLaws
import Idealize.ShloMosaic.Lib.ReduceAll
import Idealize.ShloMosaic.Lib.ValueIdx
import Idealize.ShloMosaic.Lib.IdealHost
import Idealize.ShloMosaic.PureOps.Ideal.Laws

noncomputable section

namespace Cert.Finite

open Cert.Pre_finite_inputs Cert.Pre_finite_inputs.Gen
open Idealize.ShloMosaic Idealize.ShloMosaic.ValueIdx Cert.RealLaws

/-- The shape of a scalar has one index. -/
instance : Subsingleton S_.Idx := ⟨fun _ _ => funext fun d => d.elim0⟩

/-- The word 0x7F800000 denotes +inf. -/
theorem word_inf : Ideal.ofBits .f32 0x7F800000#32 = ⊤ := by simp [Ideal.ofBits, Ideal.ieee]

/-- An extended real whose absolute value compares below +inf is a real number. -/
theorem isReal_of_abs_lt_inf (x : EReal)
    (h : Ideal.cmp .olt (max x (-x)) (Ideal.ofBits .f32 0x7F800000#32) = 1#1) : IsReal x := by
  rw [word_inf] at h
  have hlt : max x (-x) < ⊤ := by
    by_contra hn
    have h0 : Ideal.cmp .olt (max x (-x)) ⊤ = 0#1 := by simp [Ideal.cmp, hn]
    rw [h0] at h
    exact absurd h (by decide)
  induction x using EReal.rec with
  | bot => exact absurd hlt (by simp)
  | top => exact absurd hlt (by simp)
  | coe r => exact ⟨r, rfl⟩

/-- One conjunct of the precondition: if "all entries of |v| are below +inf" came out true, every entry of v is real. -/
theorem real_of_all {s : Shape} {axes : List (Fin s.rank)} (v : FVec Ideal s .f32)
    (hb : S_.BroadcastsInDim s (![] : Fin 0 → Fin s.rank)) (hred : s.ReducesTo axes S_) (hu : 0 < S_.numel)
    (e : Host.reduce IntOp.andi (cmpf .olt (Host.absf v) (broadcastInDim s ![] hb (constant S_ .f32 0x7F800000#32)))
          (constantI S_ 1 1#1) hred hu ix0 = 1#1) (i : s.Idx) : IsReal (v i) := by
  have hp := Host.reduce_andi_all _ _ hred hu ix0 e i
  have hc : broadcastInDim s ![] hb (constant (F := Ideal) S_ .f32 0x7F800000#32) i = Ideal.ofBits .f32 0x7F800000#32 :=
    broadcastInDim_scalar_apply hb _ i
  apply isReal_of_abs_lt_inf
  rw [← hc]
  exact hp

/-- Under the precondition every entry of the five float arguments is a real number. -/
theorem real_of_pre (x : FVec Ideal S100000x128 .f32) (ei : IVec S2x600000 32) (w : FVec Ideal S128x128 .f32)
    (b γ β : FVec Ideal S128 .f32) (h : fn (F := Ideal) x ei w b γ β = fun _ => 1#1) :
    (∀ i, IsReal (x i)) ∧ (∀ i, IsReal (w i)) ∧ (∀ i, IsReal (b i)) ∧ (∀ i, IsReal (γ i)) ∧ (∀ i, IsReal (β i)) := by
  have h0 := congrFun h ix0
  dsimp only [fn, fn_part1] at h0
  obtain ⟨h1234, h5⟩ := IntOp.andi_eq_one.mp h0
  obtain ⟨h123, h4⟩ := IntOp.andi_eq_one.mp h1234
  obtain ⟨h12, h3⟩ := IntOp.andi_eq_one.mp h123
  obtain ⟨h1, h2⟩ := IntOp.andi_eq_one.mp h12
  exact ⟨real_of_all x _ _ _ h1, real_of_all w _ _ _ h2, real_of_all b _ _ _ h3, real_of_all γ _ _ _ h4,
    real_of_all β _ _ _ h5⟩

end Cert.Finite

end
-- ==== Proof.lean ====
/-
  A graph-convolution block with batch normalisation, computed two ways, gives one result on finite inputs.

  Both programs compute h = x + (agg · W + b), where agg(n, ·) sums, over the edges into node n, the source node's row
  of x scaled by the inverse square roots of the clipped source out-degree and destination in-degree; one program
  scales the gathered rows, the other gathers the scaled rows, and a gather commutes with a scaling of whole rows.
  One program then takes the statistics in one pass — the column sums of h and of h², then
  var = s2 / N − (s1 / N)² — and normalises in a third pass over row blocks; the other takes the mean and then the mean
  of the squared deviations. The two variances agree because every entry of h is a real number: the precondition
  makes every entry of x, W and b real, and h is a finite combination of them (sums, products, inverse square roots of
  reals that are at least one). Row blocks, the order of the sums and the matrix unit against the host's product
  make no difference over the extended reals.

  The three frames: the two kernel programs' are their generated frame certificates; the reference's is its run with
  the result dropped. The idealisation rewrote nothing, so there is nothing to preserve.
-/
import proofs.«108725_j43920335568926_2_alg».proof.Defs
import proofs.«108725_j43920335568926_2_alg».proof.Proof.Gen.Kernel
import proofs.«108725_j43920335568926_2_alg».proof.Proof.Gen.Kernel.Frame
import proofs.«108725_j43920335568926_2_alg».proof.Proof.Gen.KernelIdeal
import proofs.«108725_j43920335568926_2_alg».proof.Proof.Gen.KernelIdeal.Frame
import proofs.«108725_j43920335568926_2_alg».proof.Proof.Gen.ReferenceIdeal
import proofs.«108725_j43920335568926_2_alg».proof.Proof.Gen.Pre_finite_inputs
import proofs.«108725_j43920335568926_2_alg».proof.Proof.KRun
import proofs.«108725_j43920335568926_2_alg».proof.Proof.KValue
import proofs.«108725_j43920335568926_2_alg».proof.Proof.RefRun
import proofs.«108725_j43920335568926_2_alg».proof.Proof.RefValue
import proofs.«108725_j43920335568926_2_alg».proof.Proof.RefReal
import proofs.«108725_j43920335568926_2_alg».proof.Proof.Head
import proofs.«108725_j43920335568926_2_alg».proof.Proof.Finite
import Idealize.ShloMosaic.Adequacy
import Idealize.ShloMosaic.Init

noncomputable section

namespace Cert.Proof

open Idealize.ShloMosaic Idealize.ShloMosaic.TcCoe Idealize.SL.Sem

/-- Under the precondition the reference's result term is the specification's function of the arguments, with the
    aggregated neighbourhood spelt as the kernel program computes it. -/
theorem bridge (x : FVec Ideal Cert.KernelIdeal.S100000x128 .f32) (ei : IVec Cert.KernelIdeal.S2x600000 32)
    (w : FVec Ideal Cert.KernelIdeal.S128x128 .f32) (b γ β : FVec Ideal Cert.KernelIdeal.S128 .f32)
    (hp : Cert.Pre_finite_inputs.fn (F := Ideal) x ei w b γ β = fun _ => 1#1) :
    Cert.ReferenceIdeal.HostTerm.refOut (F := Ideal) x ei w b γ β
      = Cert.Spec.normRelu
          (Cert.Spec.hres x (Cert.KernelIdeal.HostTerm.aggK (F := Ideal) x ei) w (Cert.Spec.rowOf b))
          (Cert.Spec.meanRow (Cert.Spec.hres x (Cert.KernelIdeal.HostTerm.aggK (F := Ideal) x ei) w (Cert.Spec.rowOf b)))
          (Cert.Spec.varRow (Cert.Spec.hres x (Cert.KernelIdeal.HostTerm.aggK (F := Ideal) x ei) w (Cert.Spec.rowOf b)))
          (Cert.Spec.rowOf γ) (Cert.Spec.rowOf β) := by
  obtain ⟨hx, hw, hb, -, -⟩ := Cert.Finite.real_of_pre x ei w b γ β hp
  unfold Cert.ReferenceIdeal.HostTerm.refOut
  rw [Cert.ReferenceIdeal.RefValue.tailR_eq _ γ β (Cert.ReferenceIdeal.RefReal.hR_real x ei w b hx hw hb),
    Cert.ReferenceIdeal.RefValue.hR_eq, ← Cert.Head.agg_eq]

theorem frame_k : Cert.frame_Kernel (hKernel := Cert.Kernel.Gen.facts) (hPre_finite_inputs := Cert.Pre_finite_inputs.Gen.facts) :=
  fun m ρ _ => Cert.Kernel.Gen.frame m ρ

theorem frame_ki :
    Cert.frame_KernelIdeal (hKernelIdeal := Cert.KernelIdeal.Gen.facts) (hPre_finite_inputs := Cert.Pre_finite_inputs.Gen.facts) :=
  fun m ρ _ => Cert.KernelIdeal.Gen.frame m ρ

theorem frame_ri :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

theorem preserves : Cert.preserves_Kernel_KernelIdeal := trivial

/-- Both idealised programs run, and their results are one array: the specification's function of the arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.Spec.normRelu (Cert.KernelIdeal.KValue.hK m c) (Cert.Spec.meanRow (Cert.KernelIdeal.KValue.hK m c))
      (Cert.Spec.varRow (Cert.KernelIdeal.KValue.hK m c))
      (Cert.Spec.rowOf (m ((c.tc : Thread Cert.KernelIdeal.nD Cert.KernelIdeal.τ).loc Cert.KernelIdeal.main_arg4)))
      (Cert.Spec.rowOf (m ((c.tc : Thread Cert.KernelIdeal.nD Cert.KernelIdeal.τ).loc Cert.KernelIdeal.main_arg5))), ?_, ?_⟩
  · exact (θ_run Cert.KernelIdeal.defs _ _).mono
      (fun _ h c => ⟨(h c).1.trans (Cert.KernelIdeal.KValue.result_eq m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5⟩ := hagree c
    rw [h0, h1, h2, h3, h4, h5]
    exact bridge _ _ _ _ _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
